-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 19
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x1, .i32⟩
  | .hbm, ⟨13, _⟩ => ⟨S1x8192, .i32⟩
  | .hbm, ⟨14, _⟩ => ⟨S8192x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  reducesTo_S8192x1_S_d0_1 : S8192x1.ReducesTo [0, 1] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v4) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .i1⟩
  | .hbm, ⟨30, _⟩ => ⟨S8192x8192, .i1⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S_, .i1⟩
  | .hbm, ⟨38, _⟩ => ⟨S8192x8192, .i1⟩
  | .hbm, ⟨39, _⟩ => ⟨S8192x8192, .i1⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_call2_v0 : Ref sig .tc := ⟨.hbm, 31, rfl⟩
abbrev main_call2_c : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_c_0 : Ref sig .tc := ⟨.hbm, 37, rfl⟩
abbrev main_call2_v5 : Ref sig .tc := ⟨.hbm, 38, rfl⟩
abbrev main_v20 : Ref sig .tc := ⟨.hbm, 39, rfl⟩
abbrev main_cst_3 : Ref sig .tc := ⟨.hbm, 40, rfl⟩
abbrev main_call3_v0 : Ref sig .tc := ⟨.hbm, 41, rfl⟩
abbrev main_call3_v1 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Entry.lean ====
/-
  The kernel's program around its one grid region: what the buffers hold when the region is entered, and that every
  input window's staging buffer holds, at each grid point, the block of its array that the point's index map names.
-/
import proofs.«140798_j17523466567855_1_alg».proof.Proof.Gen.KernelIdeal.Launch
import proofs.«140798_j17523466567855_1_alg».proof.Proof.Gen.KernelIdeal.Skeleton
import proofs.«140798_j17523466567855_1_alg».proof.Proof.Gen.KernelIdeal.Points
import Idealize.ShloMosaic.Lib.Pipeline.Frame
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The buffers' contents when the region is entered: the launch contents after the host operations before it
    (the row norms, the normalised matrix, the two reshapes of the labels). -/
abbrev V0 (c : Dev nD) : Valuation τ sig (Elt F) := StableHlo.after (List.flatten [hostOps0, hostOps0_1]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is host operations, the region, host operations: it reduces to the region continued by the later
    operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) (fun c => (main_chain c).trans rfl)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point, whether the point
    fetches it or not (an unfetched point has the same block index as the point before), for any proof data whose
    array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every grid point, whether the point
    fetches it or not (an unfetched point has the same block index as the point before), for any proof data whose
    array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every grid point, whether the point
    fetches it or not (an unfetched point has the same block index as the point before), for any proof data whose
    array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block of the array at every grid point, whether the point
    fetches it or not (an unfetched point has the same block index as the point before), for any proof data whose
    array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.Exit.lean ====
/-
  What the buffers hold when the kernel's region is left and after the operations that follow it: the region
  changes one array, its output column; the later operations write four scalars (a zero, the sum of the column,
  the pair count, their quotient).
-/
import proofs.«140798_j17523466567855_1_alg».proof.Proof.Gen.KernelIdeal.Launch
import proofs.«140798_j17523466567855_1_alg».proof.Proof.Gen.KernelIdeal.Skeleton
import proofs.«140798_j17523466567855_1_alg».proof.Proof.Gen.KernelIdeal.Points
import Idealize.ShloMosaic.Lib.Pipeline.Frame
import Idealize.ShloMosaic.Lib.Pipeline.FrameBody
import Idealize.ShloMosaic.Lib.Pipeline.FrameSuffix
import proofs.«140798_j17523466567855_1_alg».proof.Proof.Entry
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four buffers the operations after the region write. -/
abbrev tailT : Finset (Ref sig .tc) := {main_cst_0, main_v8, main_cst_1, main_v9}

/-- What the buffers hold when the region is left: the region's output array at `A4`, every other as entered. -/
abbrev Wx (c : Dev nD) (A4 : Buf (Elt F) ((c : Thread nD τ).loc main_v7)) : Valuation τ sig (Elt F) :=
  Function.update (V0 m c) (Proc.devRef .tc main_v7) A4
/-- What they hold at the end: after the operations that follow the region. -/
abbrev Vt (c : Dev nD) (A4 : Buf (Elt F) ((c : Thread nD τ).loc main_v7)) (b : Ref sig .tc) : Buf (Elt F) ((c : Thread nD τ).loc b) :=
  StableHlo.after hostOps1 (Wx m c A4) (Proc.devRef .tc b)

end Cert.KernelIdeal.Hand

end
-- ==== Proof.KFrame.lean ====
/-
  The kernel's program run as a whole: host operations, the grid region, host operations.

  Two of the region's five windows read ONE array (the normalised matrix, as row block and as column block), so the
  array's buffer is split into two half shares at the region's entry, one per window; the output column is the only
  array the region changes. After the region the later operations touch only that column and the four scalars they
  write; every other buffer, the two arguments among them, stays as it was when the region was entered.
-/
import proofs.«140798_j17523466567855_1_alg».proof.Proof.Gen.KernelIdeal.Launch
import proofs.«140798_j17523466567855_1_alg».proof.Proof.Gen.KernelIdeal.Skeleton
import proofs.«140798_j17523466567855_1_alg».proof.Proof.Gen.KernelIdeal.Points
import Idealize.ShloMosaic.Lib.Pipeline.Frame
import Idealize.ShloMosaic.Lib.Pipeline.FrameBody
import Idealize.ShloMosaic.Lib.Pipeline.FrameSuffix
import proofs.«140798_j17523466567855_1_alg».proof.Proof.Exit
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Arrays

variable {c : Dev nD} (dat : Dat τ (Elt F) Unit ℕ (UR sig nD τ) ℕ cfg0 c)

/-- A window's array is a whole buffer: the points-to of its view is the buffer's. -/
theorem arr_pt (w : Fin cfg0.W) (n : ℕ) (q : PosShare TreeShare) (hs : dat.share w = q)
    (X : Buf (Elt F) ((c.tc : Thread nD τ).loc (Pipeline.arrRef spec0 w))) (hX : dat.arrAt w n = X) :
    (((cfg0.win w).arr.view.loc (c.tc : Thread nD τ)) ↦[(cfg0.win w).arr.view.set]{dat.share w} dat.arrAt w n : sProp 𝕄)
      = (((c.tc : Thread nD τ).loc (Pipeline.arrRef spec0 w)) ↦{q} X) := by
  subst hs hX; rw [(arr_whole0 w).set_eq_univ]

/-- The five windows' arrays one by one: the two windows on the normalised matrix hold its two halves. -/
theorem arrays_chain (hq0 : dat.q 0 = fullShare.left) (hq1 : dat.q 1 = fullShare.right) (hq2 : dat.q 2 = fullShare) (hq3 : dat.q 3 = fullShare)
    (n : ℕ) (X0 X1 : Buf (Elt F) ((c.tc : Thread nD τ).loc main_v4)) (X2 : Buf (Elt F) ((c.tc : Thread nD τ).loc main_v5))
    (X3 : Buf (Elt F) ((c.tc : Thread nD τ).loc main_v6)) (X4 : Buf (Elt F) ((c.tc : Thread nD τ).loc main_v7))
    (h0 : dat.arrAt 0 n = X0) (h1 : dat.arrAt 1 n = X1) (h2 : dat.arrAt 2 n = X2) (h3 : dat.arrAt 3 n = X3) (h4 : dat.arrAt 4 n = X4) :
    (dat.arrays (dat.arrAt · n) : sProp 𝕄)
      = iprop((((c.tc : Thread nD τ).loc main_v4) ↦{fullShare.left} X0) ∗ (((c.tc : Thread nD τ).loc main_v4) ↦{fullShare.right} X1)
          ∗ (((c.tc : Thread nD τ).loc main_v5) ↦{fullShare} X2) ∗ (((c.tc : Thread nD τ).loc main_v6) ↦{fullShare} X3)
          ∗ (((c.tc : Thread nD τ).loc main_v7) ↦{fullShare} X4)) := by
  unfold Dat.arrays; rw [bigSep_W0]
  exact congr (congrArg BI.sep (arr_pt dat 0 n _ (by unfold Dat.share; exact hq0) X0 h0))
    (congr (congrArg BI.sep (arr_pt dat 1 n _ (by unfold Dat.share; exact hq1) X1 h1))
      (congr (congrArg BI.sep (arr_pt dat 2 n _ (by unfold Dat.share; exact hq2) X2 h2))
        (congr (congrArg BI.sep (arr_pt dat 3 n _ (by unfold Dat.share; exact hq3) X3 h3))
          (arr_pt dat 4 n _ (by unfold Dat.share; rfl) X4 h4))))

/-- At the region's entry: the distinct buffers behind the windows' arrays, whole, make the windows' arrays — the
    normalised matrix, which two windows read, split into its two halves. -/
theorem arrays_entry (hA : ∀ w, dat.A w = V m c (Pipeline.arrRef spec0 w))
    (hq0 : dat.q 0 = fullShare.left) (hq1 : dat.q 1 = fullShare.right) (hq2 : dat.q 2 = fullShare) (hq3 : dat.q 3 = fullShare) :
    (Pipeline.arrBufs spec0 c (V m c) : sProp 𝕄) ⊢ dat.arrays (dat.arrAt · 0) := by
  have hI : Finset.univ.image (Pipeline.arrRef spec0) = ([main_v4, main_v5, main_v6, main_v7] : List (Ref sig .tc)).toFinset := by decide
  rw [arrays_chain dat hq0 hq1 hq2 hq3 0 (V m c main_v4) (V m c main_v4) (V m c main_v5) (V m c main_v6) (V m c main_v7)
    (hA 0) (hA 1) (hA 2) (hA 3) (hA 4)]
  unfold Pipeline.arrBufs
  rw [bigSep_eq_bigSepL_of_eq _ hI (by decide)]
  show iprop((((c.tc : Thread nD τ).loc main_v4) ↦{fullShare} V m c main_v4) ∗ (((c.tc : Thread nD τ).loc main_v5) ↦{fullShare} V m c main_v5)
      ∗ (((c.tc : Thread nD τ).loc main_v6) ↦{fullShare} V m c main_v6) ∗ (((c.tc : Thread nD τ).loc main_v7) ↦{fullShare} V m c main_v7)) ⊢ _
  iintro ⟨H4, H5, H6, H7⟩
  ihave H4 := (pointsTo_share (PosShare.mem_left_op_right fullShare)).1 $$ H4
  icases H4 with ⟨H4a, H4b⟩
  isplitl [H4a]; · iexact H4a
  isplitl [H4b]; · iexact H4b
  isplitl [H5]; · iexact H5
  isplitl [H6]; · iexact H6
  iexact H7

end Arrays

section Tail

variable {c : Dev nD} (dat : Dat τ (Elt F) Unit ℕ (UR sig nD τ) ℕ cfg0 c)

/-- The buffers the operations after the region touch: the region's output array and the four they write. -/
abbrev tailS : Finset (DevRef τ sig) := (insert main_v7 tailT).map ⟨Proc.devRef (sig := sig) .tc, Proc.devRef_injective _⟩

theorem held_tailS (c : Dev nD) (W : Valuation τ sig (Elt F)) :
    (StableHlo.held (c.tc : Thread nD τ) tailS W : sProp 𝕄)
      = iprop((((c.tc : Thread nD τ).loc main_v7) ↦{fullShare} W (Proc.devRef .tc main_v7))
          ∗ bigSep tailT fun b => ((c.tc : Thread nD τ).loc b) ↦{fullShare} W (Proc.devRef .tc b)) := by
  unfold StableHlo.held tailS
  rw [bigSep_map, bigSep_insert (by decide)]
  rfl

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl
  all_goals (simp only [StableHlo.nullary_bufs, StableHlo.binary_bufs]; decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- None of the later operations writes the region's output array. -/
theorem tail_keeps : ∀ op ∈ (hostOps1 : List (HloOp τ sig (Elt F))), Proc.devRef .tc main_v7 ∉ op.writes := by
  intro op hop
  simp only [hostOps1, List.mem_cons, List.mem_nil_iff, or_false] at hop
  rcases hop with rfl | rfl | rfl | rfl
  all_goals simp only [StableHlo.nullary_writes, StableHlo.binary_writes, Finset.mem_singleton] <;> exact StableHlo.devRef_ne_of_ne (by decide)

set_option maxHeartbeats 1000000 in
set_option backward.isDefEq.respectTransparency.types false in
/-- The operations after the region: from the region's exit (the windows' arrays at their final contents, the four
    buffers they write and every other buffer as the region was entered) they run, touching only the output array
    and those four, and leave the arrays as they were and the four at what they compute from the output array. -/
theorem tail_run (hq0 : dat.q 0 = fullShare.left) (hq1 : dat.q 1 = fullShare.right) (hq2 : dat.q 2 = fullShare) (hq3 : dat.q 3 = fullShare)
    (Q' : PUnit → sProp 𝕄) :
    iprop((iprop(dat.arrays (dat.arrAt · cfg0.N)
              ∗ (bigSep tailT fun b => ((c.tc : Thread nD τ).loc b) ↦{fullShare} Vt m c (dat.arrAt 4 cfg0.N) b)
              ∗ bigSep (Pipeline.restRefs sig spec0 \ tailT) fun b => ((c.tc : Thread nD τ).loc b) ↦{fullShare} V m c b) -∗ Q' ⟨⟩)
        ∗ boundary (c.tc : Thread nD τ) ∗ dat.arrays (dat.arrAt · cfg0.N)
        ∗ (bigSep tailT fun b => ((c.tc : Thread nD τ).loc b) ↦{fullShare} V m c b)
        ∗ bigSep (Pipeline.restRefs sig spec0 \ tailT) fun b => ((c.tc : Thread nD τ).loc b) ↦{fullShare} V m c b)
      ⊢ wp frame (wpE (Pipeline.defs (fun q => (cfgs q).toPCfg) (defs₀ (F := F))) (Variants.lift Variants.none) (c.tc : Thread nD τ) none) Set.univ
          (Pipeline.chain [StableHlo.seq hostOps1]) Q' := by
  rw [arrays_chain dat hq0 hq1 hq2 hq3 cfg0.N _ _ _ _ (dat.arrAt 4 cfg0.N) rfl rfl rfl rfl rfl]
  have hW : (StableHlo.held (c.tc : Thread nD τ) tailS (Wx m c (dat.arrAt 4 cfg0.N)) : sProp 𝕄)
      = iprop((((c.tc : Thread nD τ).loc main_v7) ↦{fullShare} dat.arrAt 4 cfg0.N)
          ∗ bigSep tailT fun b => ((c.tc : Thread nD τ).loc b) ↦{fullShare} V m c b) := by
    rw [held_tailS]
    refine congr (congrArg BI.sep ?_) (bigSep_congr fun b hb => ?_)
    · first | rfl | rw [Function.update_self]
    · have hne : Proc.devRef (τ := τ) .tc b ≠ Proc.devRef .tc main_v7 :=
        StableHlo.devRef_ne_of_ne (fun e => by subst e; revert hb; decide)
      exact congrArg (fun v : Buf (Elt F) ((c.tc : Thread nD τ).loc b) => (((c.tc : Thread nD τ).loc b) ↦{fullShare} v : sProp 𝕄))
        (Function.update_of_ne hne (dat.arrAt 4 cfg0.N) (V0 m c))
  have hW' : (StableHlo.held (c.tc : Thread nD τ) tailS (StableHlo.after hostOps1 (Wx m c (dat.arrAt 4 cfg0.N))) : sProp 𝕄)
      = iprop((((c.tc : Thread nD τ).loc main_v7) ↦{fullShare} dat.arrAt 4 cfg0.N)
          ∗ bigSep tailT fun b => ((c.tc : Thread nD τ).loc b) ↦{fullShare} Vt m c (dat.arrAt 4 cfg0.N) b) := by
    rw [held_tailS]
    refine congr (congrArg BI.sep ?_) rfl
    rw [StableHlo.after_of_forall_not_mem _ _ tail_keeps]
    try (first | rfl | rw [Function.update_self])
  iintro ⟨Hk, Hb, ⟨H0, H1, H2, H3, H4⟩, HT, HR⟩
  ihave Hh := (Entails.of_eq hW.symm) $$ [H4 HT]
  · isplitl [H4] <;> iassumption
  rw [← List.append_nil ([StableHlo.seq hostOps1])]
  iapply (Pipeline.wp_seqs_then (fun q => (cfgs q).toPCfg) (defs₀ (F := F)) Variants.none c tailS [] [hostOps1] tail_sub tail_fresh (Wx m c (dat.arrAt 4 cfg0.N))) $$ [Hb Hh]
  · isplitl [Hb] <;> iassumption
  iintro Hb
  rw [Pipeline.chain_nil, wp_pure, List.flatten_cons, List.flatten_nil, List.append_nil, hW']
  imodintro
  icases Hb with ⟨-, ⟨H4, HT⟩⟩
  iapply Hk
  isplitl [H0 H1 H2 H3 H4]
  · isplitl [H0]; · iexact H0
    isplitl [H1]; · iexact H1
    isplitl [H2]; · iexact H2
    isplitl [H3]; · iexact H3
    iexact H4
  isplitl [HT]; · iexact HT
  iexact HR

end Tail

theorem tailT_sub : tailT ⊆ Pipeline.restRefs sig spec0 := by decide

set_option maxRecDepth 65536 in
theorem V_main_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results
set_option maxRecDepth 65536 in
theorem V_main_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results

/-- The whole run. For any proof data of the one grid region whose arrays are the entry contents, whose two windows on
    the normalised matrix hold its two halves, whose invariant is the scoped rest and the generator register and
    whose body obligation holds: every weakly fair execution terminates; the result is what the later operations
    compute from the region's output array, and the two argument arrays end as launched. -/
theorem run_around
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hΦ : ∀ c t, (dats 0 c).Φ t = Pipeline.ΦA spec0 c)
    (howed : ∀ c t, (dats 0 c).owed t = 0) :
    θ_run defs (onTc (τ := τ) (main (F := F))) (s₀ m ρ) (fun r => ∀ c : Dev nD,
      r.2.mem ((c.tc : Thread nD τ).loc main_v9) = Vt m c ((dats 0 c).arrAt 4 cfg0.N) main_v9
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_entry m (dats 0 c) (hA c) (hq0 c) (hq1 c) (hq2 c) (hq3 c))
    (hpf := fun _ k => k.elim0)
    (X := fun c => iprop(∃ r, prngReg c r)) (Y := fun c => iprop(∃ r, prngReg c r))
    (Z := fun c => iprop((bigSep tailT fun b => ((c.tc : Thread nD τ).loc b) ↦{fullShare} V m c b)
        ∗ bigSep (Pipeline.restRefs sig spec0 \ tailT) fun b => ((c.tc : Thread nD τ).loc b) ↦{fullShare} V m c b))
    (Z' := fun c => iprop((bigSep tailT fun b => ((c.tc : Thread nD τ).loc b) ↦{fullShare} Vt m c ((dats 0 c).arrAt 4 cfg0.N) b)
        ∗ bigSep (Pipeline.restRefs sig spec0 \ tailT) fun b => ((c.tc : Thread nD τ).loc b) ↦{fullShare} V m c b))
    (hX := fun c => by
      iintro ⟨HU, -, -, -, Hp, -⟩; imodintro
      isplitl [Hp]; · iexists _; iexact Hp
      iapply (show (Pipeline.unscopedRestP Pipeline.Prefetch.none spec0 c (V m c) : sProp 𝕄) ⊢ _ from by
        rw [Pipeline.unscopedRestP_none]; unfold Pipeline.unscopedRest
        rw [bigSep_sdiff_split tailT_sub]; exact .rfl)
      iexact HU)
    (hin := fun c => by
      rw [hΦ c 0]; unfold Pipeline.ΦA
      iintro ⟨Hp, -, Hr⟩
      isplitl [Hr] <;> iassumption)
    (hout := fun c => by
      rw [hΦ c _, Pipeline.ownSems0_none]; unfold Pipeline.ΦA
      iintro ⟨Hr, Hp⟩
      isplitl [Hp]; · iexact Hp
      isplitr; · iempintro
      iexact Hr)
    (htail := fun c Q' => tail_run m (dats 0 c) (hq0 c) (hq1 c) (hq2 c) (hq3 c) Q')
    (QY := fun c s => (∀ b ∈ tailT, s.mem ((c.tc : Thread nD τ).loc b) = Vt m c ((dats 0 c).arrAt 4 cfg0.N) b)
        ∧ ∀ b ∈ Pipeline.restRefs sig spec0 \ tailT, s.mem ((c.tc : Thread nD τ).loc b) = V m c b)
    (hY := fun c s' => by
      iintro ⟨-, ⟨HT, HR⟩, HSI⟩
      ihave H1 := (pointsTo_read_all tailT (fun b => (c.tc : Thread nD τ).loc b) (Vt m c ((dats 0 c).arrAt 4 cfg0.N)) s') $$ [HT HSI]
      · isplitl [HT] <;> iassumption
      icases H1 with ⟨%hT, HSI⟩
      ihave H2 := (pointsTo_read_all (Pipeline.restRefs sig spec0 \ tailT) (fun b => (c.tc : Thread nD τ).loc b) (V m c) s') $$ [HR HSI]
      · isplitl [HR] <;> iassumption
      icases H2 with ⟨%hR, HSI⟩
      imodintro
      isplitr; · ipureintro; exact ⟨hT, hR⟩
      iexact HSI)
    (hQ := fun s h c => by
      obtain ⟨-, -, hT, hR⟩ := h c
      exact ⟨hT main_v9 (by decide), (hR main_arg0 (by decide)).trans (V_main_arg0 m c), (hR main_arg1 (by decide)).trans (V_main_arg1 m c)⟩)

end Cert.KernelIdeal.Hand

end
-- ==== Proof.Body.lean ====
/-
  The kernel body's symbolic runs, generic in the float instance.

  At grid point (i0, i1) of the 8×8 grid the body, when i1 = 0, stores a zero column into the output's staging
  buffer; it then loads the four input staging buffers and the output's (whole buffers, through the full
  rectangle at zero offsets) and stores back `k0_pay1 (k0_pay3 acc) (k0_pay4 i a b r c)`: the running column `acc`
  plus the row sums of the masked pairwise term of this point. Here: the branch condition in closed form over the
  grid, the staging memrefs at a point, and the body's run in each of the two cases, as a list of written pieces
  together with the proof that the body runs to any continuation holding the output's buffer with those pieces
  written and the inputs' buffers unchanged.
-/
import proofs.«140798_j17523466567855_1_alg».proof.Proof.Gen.KernelIdeal.Launch
import proofs.«140798_j17523466567855_1_alg».proof.Proof.Gen.KernelIdeal.Skeleton
import proofs.«140798_j17523466567855_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional, from the grid coordinates: the second coordinate is zero. -/
abbrev cond0 (i : grid0.Coords) : Prop := (Scalar.cmpi .ne (Scalar.extui (Scalar.cmpi .eq (BitVec.ofNat 32 (i 1).val) 0#32)) 0#32) = 1#1
/-- It holds exactly at the first point of each row of the grid — decided over the 64 points. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs at a point -/

/-- Each window's current staging memref at point `t`, as the pipeline passes it to the body, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)

/-- The body at point `t` is the kernel on these memrefs. -/
theorem bodyAt0_eq (t : Fin cfg0.N) :
    bodyAt0 (F := F) t = cc0__pairwise_kernel (grid0.coords t) (ms0_0 t) (hs0_0 t) (ms0_1 t) (hs0_1 t) (ms0_2 t) (hs0_2 t) (ms0_3 t) (hs0_3 t) (ms0_4 t) (hs0_4 t) := rfl

/-! ## The body's two runs -/

set_option maxHeartbeats 1000000 in
/-- The pieces the body's stores leave in the output's staging memref (last first) when the second grid coordinate is
    zero, with the proof that on whole staging memrefs — the four inputs' at their contents, the output's at anything —
    the body runs to a continuation that holds the inputs' as they were and the output's with these pieces written. -/
noncomputable def kernelRun_reset (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : cond0 i)
    (x0 : Vec F S1024x256 .f32) (x1 : Vec F S1024x256 .f32) (x2 : Vec F S1024x1 .i32) (x3 : Vec F S1x1024 .i32) :
    { L : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The pieces the body's one store leaves in the output's staging memref when the second grid coordinate is not zero,
    with the proof that on whole staging memrefs — the four inputs' at their contents, the output's at its running
    contents `xo` — the body runs to a continuation that holds the inputs' as they were and the output's with these
    pieces written. -/
noncomputable def kernelRun_acc (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1024x1 .f32) :
    { L : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.BodyOut.lean ====
/-
  What each of the body's two cases leaves in the output's staging buffer, as a payload of the skeleton.

  The pieces each run found cover the block (its last store is of the whole column), so the buffer's contents are a
  function of the pieces alone; read back, the accumulate case leaves `k0_pay1 (k0_pay3 xo) (k0_pay4 i x0 x1 x2 x3)`
  over the running column `xo`, and the reset case the same over the zero column `k0_pay2` it stored first and
  read back. The payloads stay folded: nothing here looks inside the arithmetic.
-/
import proofs.«140798_j17523466567855_1_alg».proof.Proof.Body
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each case leaves in the output's staging buffer -/

/-- One staging buffer of the output window, through which its contents are stated (the choice does not matter:
    covering writes read the same through any view of the shape). -/
abbrev VO : View sig .tc .vmem S1024x1 .f32 := (Memref.whole cc0_stg4_0 : Memref sig .tc .vmem S1024x1 .f32).view

/-- The offsets of the body's rectangles are all zero. -/
theorem hz : (![0, 0] : Fin 2 → Nat) = fun _ => 0 := funext fun a => by fin_cases a <;> rfl

/-- In the reset case the written pieces (two stores of the whole column) cover the block. -/
theorem cover_reset (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : cond0 i)
    (x0 : Vec F S1024x256 .f32) (x1 : Vec F S1024x256 .f32) (x2 : Vec F S1024x1 .i32) (x3 : Vec F S1x1024 .i32) (y : S1024x1.Idx) :
    ∃ pc ∈ (kernelRun_reset c i arg2 harg2 arg3 harg3 arg4 harg4 arg5 harg5 arg6 harg6 hc0 x0 x1 x2 x3).1, y ∈ pc.1.set :=
  View.cover_of_tiledL (kernelRun_reset c i arg2 harg2 arg3 harg3 arg4 harg4 arg5 harg5 arg6 harg6 hc0 x0 x1 x2 x3).1 S1024x1.size (by sl_kernel_rfl) y

/-- What the reset case leaves in the output's staging buffer: its pieces read back over junk. -/
def out_reset (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : cond0 i)
    (x0 : Vec F S1024x256 .f32) (x1 : Vec F S1024x256 .f32) (x2 : Vec F S1024x1 .i32) (x3 : Vec F S1x1024 .i32) : Vec F S1024x1 .f32 :=
  VO.read (Elt F) (VO.writes (Elt F) VO.junk (kernelRun_reset c i arg2 harg2 arg3 harg3 arg4 harg4 arg5 harg5 arg6 harg6 hc0 x0 x1 x2 x3).1)

/-- In the accumulate case the one written piece (a store of the whole column) covers the block. -/
theorem cover_acc (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1024x1 .f32) (y : S1024x1.Idx) :
    ∃ pc ∈ (kernelRun_acc c i arg2 harg2 arg3 harg3 arg4 harg4 arg5 harg5 arg6 harg6 hc0 x0 x1 x2 x3 xo).1, y ∈ pc.1.set :=
  View.cover_of_tiledL (kernelRun_acc c i arg2 harg2 arg3 harg3 arg4 harg4 arg5 harg5 arg6 harg6 hc0 x0 x1 x2 x3 xo).1 S1024x1.size (by sl_kernel_rfl) y

/-- What the accumulate case leaves in the output's staging buffer: its piece read back over junk. -/
def out_acc (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1024x1 .f32) : Vec F S1024x1 .f32 :=
  VO.read (Elt F) (VO.writes (Elt F) VO.junk (kernelRun_acc c i arg2 harg2 arg3 harg3 arg4 harg4 arg5 harg5 arg6 harg6 hc0 x0 x1 x2 x3 xo).1)

/-! ## The two pieces as payloads -/

/-- THE ACCUMULATE CASE: the body leaves the running column `xo` plus this point's row sums — the payload of its one
    covering store, each of whose loads reads a whole buffer. -/
theorem out_acc_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1024x1 .f32) :
    out_acc c i arg2 harg2 arg3 harg3 arg4 harg4 arg5 harg5 arg6 harg6 hc0 x0 x1 x2 x3 xo = k0_pay1 (k0_pay3 xo) (k0_pay4 i x0 x1 x2 x3) := by
  unfold out_acc
  rw [View.read_writes_eq_canon _ _ _ (cover_acc c i arg2 harg2 arg3 harg3 arg4 harg4 arg5 harg5 arg6 harg6 hc0 x0 x1 x2 x3 xo)]
  unfold kernelRun_acc
  dsimp only
  rw [View.canon_unit_zero hz]
  simp only [View.readAt_eq_ld, harg2.read_unread, harg3.read_unread, harg4.read_unread, harg5.read_unread, harg6.read_unread,
    View.ld_unit_zero (S := S1024x1) hz, View.ld_unit_zero (S := S1024x256) hz, View.ld_unit_zero (S := S1x1024) hz]

/-- THE RESET CASE: the body stores the zero column, reads it back, and leaves it plus this point's row sums. -/
theorem out_reset_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : cond0 i)
    (x0 : Vec F S1024x256 .f32) (x1 : Vec F S1024x256 .f32) (x2 : Vec F S1024x1 .i32) (x3 : Vec F S1x1024 .i32) :
    out_reset c i arg2 harg2 arg3 harg3 arg4 harg4 arg5 harg5 arg6 harg6 hc0 x0 x1 x2 x3 = k0_pay1 (k0_pay3 (k0_pay2 (F := F))) (k0_pay4 i x0 x1 x2 x3) := by
  unfold out_reset
  rw [View.read_writes_eq_canon _ _ _ (cover_reset c i arg2 harg2 arg3 harg3 arg4 harg4 arg5 harg5 arg6 harg6 hc0 x0 x1 x2 x3)]
  unfold kernelRun_reset
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread,
    View.ld_unit_zero (S := S1024x1) hz, View.ld_unit_zero (S := S1024x256) hz, View.ld_unit_zero (S := S1x1024) hz]

end Cert.KernelIdeal.Hand

end
-- ==== Proof.KDat.lean ====
/-
  The pipeline's proof data and the body obligation.

  The output window's block index depends on the first grid coordinate only, so along a row of the grid its staging
  buffer is an accumulator: the first point of the row stores the zero column and adds its row sums, each later point
  adds its own, and the last point of the row writes the block back. `outsAt` is what that buffer holds after the body
  at each point, by recursion on the point; the proof data states it for the output window and each input window's
  block for the inputs; the body obligation follows from the body's two runs, the case chosen by the closed form of
  the branch condition.
-/
import proofs.«140798_j17523466567855_1_alg».proof.Proof.Entry
import proofs.«140798_j17523466567855_1_alg».proof.Proof.BodyOut

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the output's staging buffer holds after each point -/

/-- What the output's staging buffer holds after the body at position `n`: at the first point of a row of the grid
    the reset case's contents, at every other point the accumulate case's over what the point before left (the
    buffer is not written back between), each at the point's memrefs and input blocks. -/
def outsAt (c : Dev nD) : (n : ℕ) → n < cfg0.N → Vec F S1024x1 .f32
  | 0, hn => out_reset c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      out_reset c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out_acc c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- `outsAt` at the first point of a row: the reset case's contents. -/
theorem outsAt_reset (c : Dev nD) (t : Fin cfg0.N) (h0 : t.val % 8 = 0) :
    outsAt m c t.val t.isLt = out_reset c (grid0.coords t) (ms0_0 t) (hs0_0 t) (ms0_1 t) (hs0_1 t) (ms0_2 t) (hs0_2 t) (ms0_3 t) (hs0_3 t) (ms0_4 t) (hs0_4 t) ((hcond0 t).mpr h0) (iblk m c 0 t) (iblk m c 1 t) (iblk m c 2 t) (iblk m c 3 t) := by
  obtain ⟨n, hn⟩ := t
  cases n with
  | zero => exact rfl
  | succ n => exact (dif_pos h0).trans rfl

/-- `outsAt` at any other point: the accumulate case's contents, over what the point before left. -/
theorem outsAt_acc (c : Dev nD) (t : Fin cfg0.N) (h0 : ¬t.val % 8 = 0) :
    outsAt m c t.val t.isLt = out_acc c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt`; the scoped rest and the generator register as
    the invariant; nothing owed; the first two windows, which read the same array, hold a half of it each, the
    others their whole arrays. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outsAt m c t.val t.isLt := by dsimp only [dats]

/-- The shares held of the windows' arrays. -/
theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]

/-- The invariant and what the core owes, at every point. -/
theorem Phi_eq (c : Dev nD) (t : Fin (cfg0.N + 1)) : (dats m 0 c).Φ t = Pipeline.ΦA spec0 c := by dsimp only [dats]
theorem owed_eq (c : Dev nD) (t : Fin (cfg0.N + 1)) : (dats m 0 c).owed t = 0 := by dsimp only [dats]

/-- Each input's current staging buffer holds its block at every point, fetched there or not. -/
theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d

/-- At a point that is not the first of its row the output's current staging buffer holds what the body left at the
    point before: the point is not the first of the grid, and the point before — not the last of a row — did not
    write the buffer back; the window is live and uncut. -/
theorem before4_acc (c : Dev nD) (t : Fin cfg0.N) (h0 : ¬t.val % 8 = 0) (d) :
    (dats m 0 c).before 4 t d = outsAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks; the closed form of the condition says which case
    the point is in; in the accumulate case the output's memref holds what the point before left; so that case's
    run applies, and what it leaves is `outsAt` at the point. The invariant passes through unread; the core owes
    nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  have hN : t.val < 64 := lt_of_lt_of_eq t.isLt (show cfg0.N = 64 from N_0)
  by_cases h0 : t.val % 8 = 0
  · rw [outsAt_reset m c t h0]
    unfold out_reset
    iintro ⟨HΦ, Ho, ⟨%d0, H0⟩, ⟨%d1, H1⟩, ⟨%d2, H2⟩, ⟨%d3, H3⟩, ⟨%d4, H4⟩⟩
    iapply ((kernelRun_reset c (grid0.coords t) (ms0_0 t) (hs0_0 t) (ms0_1 t) (hs0_1 t) (ms0_2 t) (hs0_2 t) (ms0_3 t) (hs0_3 t) (ms0_4 t) (hs0_4 t) ((hcond0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_reset c (grid0.coords t) (ms0_0 t) (hs0_0 t) (ms0_1 t) (hs0_1 t) (ms0_2 t) (hs0_2 t) (ms0_3 t) (hs0_3 t) (ms0_4 t) (hs0_4 t) ((hcond0 t).mpr h0) (iblk m c 0 t) (iblk m c 1 t) (iblk m c 2 t) (iblk m c 3 t))
  · rw [outsAt_acc m c t h0]
    simp only [before4_acc m c t h0]
    unfold out_acc
    iintro ⟨HΦ, Ho, ⟨%d0, H0⟩, ⟨%d1, H1⟩, ⟨%d2, H2⟩, ⟨%d3, H3⟩, ⟨%d4, H4⟩⟩
    iapply ((kernelRun_acc c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk m c 0 t) (iblk m c 1 t) (iblk m c 2 t) (iblk m c 3 t) (outsAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_acc c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk m c 0 t) (iblk m c 1 t) (iblk m c 2 t) (iblk m c 3 t) (outsAt m c (t.val - 1) (Nat.lt_of_le_of_lt (Nat.sub_le _ _) t.isLt)))

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KRun.lean ====
/-
  The kernel's run with the region's proof data: the region's output column after the last grid point goes through
  the later operations to the result; the argument arrays end as launched (the frame).
-/
import proofs.«140798_j17523466567855_1_alg».proof.Proof.Gen.KernelIdeal.Launch
import proofs.«140798_j17523466567855_1_alg».proof.Proof.Gen.KernelIdeal.Skeleton
import proofs.«140798_j17523466567855_1_alg».proof.Proof.Gen.KernelIdeal.Points
import Idealize.ShloMosaic.Lib.Pipeline.Frame
import Idealize.ShloMosaic.Lib.Pipeline.FrameBody
import Idealize.ShloMosaic.Lib.Pipeline.FrameSuffix
import proofs.«140798_j17523466567855_1_alg».proof.Proof.KFrame
import proofs.«140798_j17523466567855_1_alg».proof.Proof.KDat
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates; the result buffer holds what the operations after the region compute
    from the output column as the grid leaves it, and the two arguments are unchanged. -/
theorem run_main : θ_run defs (onTc (τ := τ) (main (F := F))) (s₀ m ρ) (fun r => ∀ c : Dev nD,
      r.2.mem ((c.tc : Thread nD τ).loc main_v9) = Vt m c ((dats m 0 c).arrAt 4 cfg0.N) main_v9
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_around m ρ (dats m) (fun c => (body_obligation m c).loose) (A_eq m) (q_0 m) (q_1 m) (q_2 m) (q_3 m) (Phi_eq m) (owed_eq m)

/-- The frame: the program runs to the end, faults nowhere and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.EntryK.lean ====
/-
  The kernel's program around its one grid region: what the buffers hold when the region is entered, and that every
  input window's staging buffer holds, at each grid point, the block of its array that the point's index map names.
-/
import proofs.«140798_j17523466567855_1_alg».proof.Proof.Gen.Kernel.Launch
import proofs.«140798_j17523466567855_1_alg».proof.Proof.Gen.Kernel.Skeleton
import proofs.«140798_j17523466567855_1_alg».proof.Proof.Gen.Kernel.Points
import Idealize.ShloMosaic.Lib.Pipeline.Frame
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The buffers' contents when the region is entered: the launch contents after the host operations before it
    (the row norms, the normalised matrix, the two reshapes of the labels). -/
abbrev V0 (c : Dev nD) : Valuation τ sig (Elt F) := StableHlo.after (List.flatten [hostOps0, hostOps0_1]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is host operations, the region, host operations: it reduces to the region continued by the later
    operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) (fun c => (main_chain c).trans rfl)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point, whether the point
    fetches it or not (an unfetched point has the same block index as the point before), for any proof data whose
    array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every grid point, whether the point
    fetches it or not (an unfetched point has the same block index as the point before), for any proof data whose
    array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every grid point, whether the point
    fetches it or not (an unfetched point has the same block index as the point before), for any proof data whose
    array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block of the array at every grid point, whether the point
    fetches it or not (an unfetched point has the same block index as the point before), for any proof data whose
    array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.ExitK.lean ====
/-
  What the buffers hold when the kernel's region is left and after the operations that follow it: the region
  changes one array, its output column; the later operations write four scalars (a zero, the sum of the column,
  the pair count, their quotient).
-/
import proofs.«140798_j17523466567855_1_alg».proof.Proof.Gen.Kernel.Launch
import proofs.«140798_j17523466567855_1_alg».proof.Proof.Gen.Kernel.Skeleton
import proofs.«140798_j17523466567855_1_alg».proof.Proof.Gen.Kernel.Points
import Idealize.ShloMosaic.Lib.Pipeline.Frame
import Idealize.ShloMosaic.Lib.Pipeline.FrameBody
import Idealize.ShloMosaic.Lib.Pipeline.FrameSuffix
import proofs.«140798_j17523466567855_1_alg».proof.Proof.EntryK
set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four buffers the operations after the region write. -/
abbrev tailT : Finset (Ref sig .tc) := {main_cst_0, main_v8, main_cst_1, main_v9}

/-- What the buffers hold when the region is left: the region's output array at `A4`, every other as entered. -/
abbrev Wx (c : Dev nD) (A4 : Buf (Elt F) ((c : Thread nD τ).loc main_v7)) : Valuation τ sig (Elt F) :=
  Function.update (V0 m c) (Proc.devRef .tc main_v7) A4
/-- What they hold at the end: after the operations that follow the region. -/
abbrev Vt (c : Dev nD) (A4 : Buf (Elt F) ((c : Thread nD τ).loc main_v7)) (b : Ref sig .tc) : Buf (Elt F) ((c : Thread nD τ).loc b) :=
  StableHlo.after hostOps1 (Wx m c A4) (Proc.devRef .tc b)

end Cert.Kernel.Hand

end
-- ==== Proof.KFrameK.lean ====
/-
  The kernel's program run as a whole: host operations, the grid region, host operations.

  Two of the region's five windows read ONE array (the normalised matrix, as row block and as column block), so the
  array's buffer is split into two half shares at the region's entry, one per window; the output column is the only
  array the region changes. After the region the later operations touch only that column and the four scalars they
  write; every other buffer, the two arguments among them, stays as it was when the region was entered.
-/
import proofs.«140798_j17523466567855_1_alg».proof.Proof.Gen.Kernel.Launch
import proofs.«140798_j17523466567855_1_alg».proof.Proof.Gen.Kernel.Skeleton
import proofs.«140798_j17523466567855_1_alg».proof.Proof.Gen.Kernel.Points
import Idealize.ShloMosaic.Lib.Pipeline.Frame
import Idealize.ShloMosaic.Lib.Pipeline.FrameBody
import Idealize.ShloMosaic.Lib.Pipeline.FrameSuffix
import proofs.«140798_j17523466567855_1_alg».proof.Proof.ExitK
set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Arrays

variable {c : Dev nD} (dat : Dat τ (Elt F) Unit ℕ (UR sig nD τ) ℕ cfg0 c)

/-- A window's array is a whole buffer: the points-to of its view is the buffer's. -/
theorem arr_pt (w : Fin cfg0.W) (n : ℕ) (q : PosShare TreeShare) (hs : dat.share w = q)
    (X : Buf (Elt F) ((c.tc : Thread nD τ).loc (Pipeline.arrRef spec0 w))) (hX : dat.arrAt w n = X) :
    (((cfg0.win w).arr.view.loc (c.tc : Thread nD τ)) ↦[(cfg0.win w).arr.view.set]{dat.share w} dat.arrAt w n : sProp 𝕄)
      = (((c.tc : Thread nD τ).loc (Pipeline.arrRef spec0 w)) ↦{q} X) := by
  subst hs hX; rw [(arr_whole0 w).set_eq_univ]

/-- The five windows' arrays one by one: the two windows on the normalised matrix hold its two halves. -/
theorem arrays_chain (hq0 : dat.q 0 = fullShare.left) (hq1 : dat.q 1 = fullShare.right) (hq2 : dat.q 2 = fullShare) (hq3 : dat.q 3 = fullShare)
    (n : ℕ) (X0 X1 : Buf (Elt F) ((c.tc : Thread nD τ).loc main_v4)) (X2 : Buf (Elt F) ((c.tc : Thread nD τ).loc main_v5))
    (X3 : Buf (Elt F) ((c.tc : Thread nD τ).loc main_v6)) (X4 : Buf (Elt F) ((c.tc : Thread nD τ).loc main_v7))
    (h0 : dat.arrAt 0 n = X0) (h1 : dat.arrAt 1 n = X1) (h2 : dat.arrAt 2 n = X2) (h3 : dat.arrAt 3 n = X3) (h4 : dat.arrAt 4 n = X4) :
    (dat.arrays (dat.arrAt · n) : sProp 𝕄)
      = iprop((((c.tc : Thread nD τ).loc main_v4) ↦{fullShare.left} X0) ∗ (((c.tc : Thread nD τ).loc main_v4) ↦{fullShare.right} X1)
          ∗ (((c.tc : Thread nD τ).loc main_v5) ↦{fullShare} X2) ∗ (((c.tc : Thread nD τ).loc main_v6) ↦{fullShare} X3)
          ∗ (((c.tc : Thread nD τ).loc main_v7) ↦{fullShare} X4)) := by
  unfold Dat.arrays; rw [bigSep_W0]
  exact congr (congrArg BI.sep (arr_pt dat 0 n _ (by unfold Dat.share; exact hq0) X0 h0))
    (congr (congrArg BI.sep (arr_pt dat 1 n _ (by unfold Dat.share; exact hq1) X1 h1))
      (congr (congrArg BI.sep (arr_pt dat 2 n _ (by unfold Dat.share; exact hq2) X2 h2))
        (congr (congrArg BI.sep (arr_pt dat 3 n _ (by unfold Dat.share; exact hq3) X3 h3))
          (arr_pt dat 4 n _ (by unfold Dat.share; rfl) X4 h4))))

/-- At the region's entry: the distinct buffers behind the windows' arrays, whole, make the windows' arrays — the
    normalised matrix, which two windows read, split into its two halves. -/
theorem arrays_entry (hA : ∀ w, dat.A w = V m c (Pipeline.arrRef spec0 w))
    (hq0 : dat.q 0 = fullShare.left) (hq1 : dat.q 1 = fullShare.right) (hq2 : dat.q 2 = fullShare) (hq3 : dat.q 3 = fullShare) :
    (Pipeline.arrBufs spec0 c (V m c) : sProp 𝕄) ⊢ dat.arrays (dat.arrAt · 0) := by
  have hI : Finset.univ.image (Pipeline.arrRef spec0) = ([main_v4, main_v5, main_v6, main_v7] : List (Ref sig .tc)).toFinset := by decide
  rw [arrays_chain dat hq0 hq1 hq2 hq3 0 (V m c main_v4) (V m c main_v4) (V m c main_v5) (V m c main_v6) (V m c main_v7)
    (hA 0) (hA 1) (hA 2) (hA 3) (hA 4)]
  unfold Pipeline.arrBufs
  rw [bigSep_eq_bigSepL_of_eq _ hI (by decide)]
  show iprop((((c.tc : Thread nD τ).loc main_v4) ↦{fullShare} V m c main_v4) ∗ (((c.tc : Thread nD τ).loc main_v5) ↦{fullShare} V m c main_v5)
      ∗ (((c.tc : Thread nD τ).loc main_v6) ↦{fullShare} V m c main_v6) ∗ (((c.tc : Thread nD τ).loc main_v7) ↦{fullShare} V m c main_v7)) ⊢ _
  iintro ⟨H4, H5, H6, H7⟩
  ihave H4 := (pointsTo_share (PosShare.mem_left_op_right fullShare)).1 $$ H4
  icases H4 with ⟨H4a, H4b⟩
  isplitl [H4a]; · iexact H4a
  isplitl [H4b]; · iexact H4b
  isplitl [H5]; · iexact H5
  isplitl [H6]; · iexact H6
  iexact H7

end Arrays

section Tail

variable {c : Dev nD} (dat : Dat τ (Elt F) Unit ℕ (UR sig nD τ) ℕ cfg0 c)

/-- The buffers the operations after the region touch: the region's output array and the four they write. -/
abbrev tailS : Finset (DevRef τ sig) := (insert main_v7 tailT).map ⟨Proc.devRef (sig := sig) .tc, Proc.devRef_injective _⟩

theorem held_tailS (c : Dev nD) (W : Valuation τ sig (Elt F)) :
    (StableHlo.held (c.tc : Thread nD τ) tailS W : sProp 𝕄)
      = iprop((((c.tc : Thread nD τ).loc main_v7) ↦{fullShare} W (Proc.devRef .tc main_v7))
          ∗ bigSep tailT fun b => ((c.tc : Thread nD τ).loc b) ↦{fullShare} W (Proc.devRef .tc b)) := by
  unfold StableHlo.held tailS
  rw [bigSep_map, bigSep_insert (by decide)]
  rfl

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl
  all_goals (simp only [StableHlo.nullary_bufs, StableHlo.binary_bufs]; decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- None of the later operations writes the region's output array. -/
theorem tail_keeps : ∀ op ∈ (hostOps1 : List (HloOp τ sig (Elt F))), Proc.devRef .tc main_v7 ∉ op.writes := by
  intro op hop
  simp only [hostOps1, List.mem_cons, List.mem_nil_iff, or_false] at hop
  rcases hop with rfl | rfl | rfl | rfl
  all_goals simp only [StableHlo.nullary_writes, StableHlo.binary_writes, Finset.mem_singleton] <;> exact StableHlo.devRef_ne_of_ne (by decide)

set_option maxHeartbeats 1000000 in
set_option backward.isDefEq.respectTransparency.types false in
/-- The operations after the region: from the region's exit (the windows' arrays at their final contents, the four
    buffers they write and every other buffer as the region was entered) they run, touching only the output array
    and those four, and leave the arrays as they were and the four at what they compute from the output array. -/
theorem tail_run (hq0 : dat.q 0 = fullShare.left) (hq1 : dat.q 1 = fullShare.right) (hq2 : dat.q 2 = fullShare) (hq3 : dat.q 3 = fullShare)
    (Q' : PUnit → sProp 𝕄) :
    iprop((iprop(dat.arrays (dat.arrAt · cfg0.N)
              ∗ (bigSep tailT fun b => ((c.tc : Thread nD τ).loc b) ↦{fullShare} Vt m c (dat.arrAt 4 cfg0.N) b)
              ∗ bigSep (Pipeline.restRefs sig spec0 \ tailT) fun b => ((c.tc : Thread nD τ).loc b) ↦{fullShare} V m c b) -∗ Q' ⟨⟩)
        ∗ boundary (c.tc : Thread nD τ) ∗ dat.arrays (dat.arrAt · cfg0.N)
        ∗ (bigSep tailT fun b => ((c.tc : Thread nD τ).loc b) ↦{fullShare} V m c b)
        ∗ bigSep (Pipeline.restRefs sig spec0 \ tailT) fun b => ((c.tc : Thread nD τ).loc b) ↦{fullShare} V m c b)
      ⊢ wp frame (wpE (Pipeline.defs (fun q => (cfgs q).toPCfg) (defs₀ (F := F))) (Variants.lift Variants.none) (c.tc : Thread nD τ) none) Set.univ
          (Pipeline.chain [StableHlo.seq hostOps1]) Q' := by
  rw [arrays_chain dat hq0 hq1 hq2 hq3 cfg0.N _ _ _ _ (dat.arrAt 4 cfg0.N) rfl rfl rfl rfl rfl]
  have hW : (StableHlo.held (c.tc : Thread nD τ) tailS (Wx m c (dat.arrAt 4 cfg0.N)) : sProp 𝕄)
      = iprop((((c.tc : Thread nD τ).loc main_v7) ↦{fullShare} dat.arrAt 4 cfg0.N)
          ∗ bigSep tailT fun b => ((c.tc : Thread nD τ).loc b) ↦{fullShare} V m c b) := by
    rw [held_tailS]
    refine congr (congrArg BI.sep ?_) (bigSep_congr fun b hb => ?_)
    · first | rfl | rw [Function.update_self]
    · have hne : Proc.devRef (τ := τ) .tc b ≠ Proc.devRef .tc main_v7 :=
        StableHlo.devRef_ne_of_ne (fun e => by subst e; revert hb; decide)
      exact congrArg (fun v : Buf (Elt F) ((c.tc : Thread nD τ).loc b) => (((c.tc : Thread nD τ).loc b) ↦{fullShare} v : sProp 𝕄))
        (Function.update_of_ne hne (dat.arrAt 4 cfg0.N) (V0 m c))
  have hW' : (StableHlo.held (c.tc : Thread nD τ) tailS (StableHlo.after hostOps1 (Wx m c (dat.arrAt 4 cfg0.N))) : sProp 𝕄)
      = iprop((((c.tc : Thread nD τ).loc main_v7) ↦{fullShare} dat.arrAt 4 cfg0.N)
          ∗ bigSep tailT fun b => ((c.tc : Thread nD τ).loc b) ↦{fullShare} Vt m c (dat.arrAt 4 cfg0.N) b) := by
    rw [held_tailS]
    refine congr (congrArg BI.sep ?_) rfl
    rw [StableHlo.after_of_forall_not_mem _ _ tail_keeps]
    try (first | rfl | rw [Function.update_self])
  iintro ⟨Hk, Hb, ⟨H0, H1, H2, H3, H4⟩, HT, HR⟩
  ihave Hh := (Entails.of_eq hW.symm) $$ [H4 HT]
  · isplitl [H4] <;> iassumption
  rw [← List.append_nil ([StableHlo.seq hostOps1])]
  iapply (Pipeline.wp_seqs_then (fun q => (cfgs q).toPCfg) (defs₀ (F := F)) Variants.none c tailS [] [hostOps1] tail_sub tail_fresh (Wx m c (dat.arrAt 4 cfg0.N))) $$ [Hb Hh]
  · isplitl [Hb] <;> iassumption
  iintro Hb
  rw [Pipeline.chain_nil, wp_pure, List.flatten_cons, List.flatten_nil, List.append_nil, hW']
  imodintro
  icases Hb with ⟨-, ⟨H4, HT⟩⟩
  iapply Hk
  isplitl [H0 H1 H2 H3 H4]
  · isplitl [H0]; · iexact H0
    isplitl [H1]; · iexact H1
    isplitl [H2]; · iexact H2
    isplitl [H3]; · iexact H3
    iexact H4
  isplitl [HT]; · iexact HT
  iexact HR

end Tail

theorem tailT_sub : tailT ⊆ Pipeline.restRefs sig spec0 := by decide

set_option maxRecDepth 65536 in
theorem V_main_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results
set_option maxRecDepth 65536 in
theorem V_main_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results

/-- The whole run. For any proof data of the one grid region whose arrays are the entry contents, whose two windows on
    the normalised matrix hold its two halves, whose invariant is the scoped rest and the generator register and
    whose body obligation holds: every weakly fair execution terminates; the result is what the later operations
    compute from the region's output array, and the two argument arrays end as launched. -/
theorem run_around
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hΦ : ∀ c t, (dats 0 c).Φ t = Pipeline.ΦA spec0 c)
    (howed : ∀ c t, (dats 0 c).owed t = 0) :
    θ_run defs (onTc (τ := τ) (main (F := F))) (s₀ m ρ) (fun r => ∀ c : Dev nD,
      r.2.mem ((c.tc : Thread nD τ).loc main_v9) = Vt m c ((dats 0 c).arrAt 4 cfg0.N) main_v9
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_entry m (dats 0 c) (hA c) (hq0 c) (hq1 c) (hq2 c) (hq3 c))
    (hpf := fun _ k => k.elim0)
    (X := fun c => iprop(∃ r, prngReg c r)) (Y := fun c => iprop(∃ r, prngReg c r))
    (Z := fun c => iprop((bigSep tailT fun b => ((c.tc : Thread nD τ).loc b) ↦{fullShare} V m c b)
        ∗ bigSep (Pipeline.restRefs sig spec0 \ tailT) fun b => ((c.tc : Thread nD τ).loc b) ↦{fullShare} V m c b))
    (Z' := fun c => iprop((bigSep tailT fun b => ((c.tc : Thread nD τ).loc b) ↦{fullShare} Vt m c ((dats 0 c).arrAt 4 cfg0.N) b)
        ∗ bigSep (Pipeline.restRefs sig spec0 \ tailT) fun b => ((c.tc : Thread nD τ).loc b) ↦{fullShare} V m c b))
    (hX := fun c => by
      iintro ⟨HU, -, -, -, Hp, -⟩; imodintro
      isplitl [Hp]; · iexists _; iexact Hp
      iapply (show (Pipeline.unscopedRestP Pipeline.Prefetch.none spec0 c (V m c) : sProp 𝕄) ⊢ _ from by
        rw [Pipeline.unscopedRestP_none]; unfold Pipeline.unscopedRest
        rw [bigSep_sdiff_split tailT_sub]; exact .rfl)
      iexact HU)
    (hin := fun c => by
      rw [hΦ c 0]; unfold Pipeline.ΦA
      iintro ⟨Hp, -, Hr⟩
      isplitl [Hr] <;> iassumption)
    (hout := fun c => by
      rw [hΦ c _, Pipeline.ownSems0_none]; unfold Pipeline.ΦA
      iintro ⟨Hr, Hp⟩
      isplitl [Hp]; · iexact Hp
      isplitr; · iempintro
      iexact Hr)
    (htail := fun c Q' => tail_run m (dats 0 c) (hq0 c) (hq1 c) (hq2 c) (hq3 c) Q')
    (QY := fun c s => (∀ b ∈ tailT, s.mem ((c.tc : Thread nD τ).loc b) = Vt m c ((dats 0 c).arrAt 4 cfg0.N) b)
        ∧ ∀ b ∈ Pipeline.restRefs sig spec0 \ tailT, s.mem ((c.tc : Thread nD τ).loc b) = V m c b)
    (hY := fun c s' => by
      iintro ⟨-, ⟨HT, HR⟩, HSI⟩
      ihave H1 := (pointsTo_read_all tailT (fun b => (c.tc : Thread nD τ).loc b) (Vt m c ((dats 0 c).arrAt 4 cfg0.N)) s') $$ [HT HSI]
      · isplitl [HT] <;> iassumption
      icases H1 with ⟨%hT, HSI⟩
      ihave H2 := (pointsTo_read_all (Pipeline.restRefs sig spec0 \ tailT) (fun b => (c.tc : Thread nD τ).loc b) (V m c) s') $$ [HR HSI]
      · isplitl [HR] <;> iassumption
      icases H2 with ⟨%hR, HSI⟩
      imodintro
      isplitr; · ipureintro; exact ⟨hT, hR⟩
      iexact HSI)
    (hQ := fun s h c => by
      obtain ⟨-, -, hT, hR⟩ := h c
      exact ⟨hT main_v9 (by decide), (hR main_arg0 (by decide)).trans (V_main_arg0 m c), (hR main_arg1 (by decide)).trans (V_main_arg1 m c)⟩)

end Cert.Kernel.Hand

end
-- ==== Proof.BodyK.lean ====
/-
  The kernel body's symbolic runs, generic in the float instance.

  At grid point (i0, i1) of the 8×8 grid the body, when i1 = 0, stores a zero column into the output's staging
  buffer; it then loads the four input staging buffers and the output's (whole buffers, through the full
  rectangle at zero offsets) and stores back `k0_pay1 (k0_pay3 acc) (k0_pay4 i a b r c)`: the running column `acc`
  plus the row sums of the masked pairwise term of this point. Here: the branch condition in closed form over the
  grid, the staging memrefs at a point, and the body's run in each of the two cases, as a list of written pieces
  together with the proof that the body runs to any continuation holding the output's buffer with those pieces
  written and the inputs' buffers unchanged.
-/
import proofs.«140798_j17523466567855_1_alg».proof.Proof.Gen.Kernel.Launch
import proofs.«140798_j17523466567855_1_alg».proof.Proof.Gen.Kernel.Skeleton
import proofs.«140798_j17523466567855_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional, from the grid coordinates: the second coordinate is zero. -/
abbrev cond0 (i : grid0.Coords) : Prop := (Scalar.cmpi .ne (Scalar.extui (Scalar.cmpi .eq (BitVec.ofNat 32 (i 1).val) 0#32)) 0#32) = 1#1
/-- It holds exactly at the first point of each row of the grid — decided over the 64 points. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs at a point -/

/-- Each window's current staging memref at point `t`, as the pipeline passes it to the body, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)

/-- The body at point `t` is the kernel on these memrefs. -/
theorem bodyAt0_eq (t : Fin cfg0.N) :
    bodyAt0 (F := F) t = cc0__pairwise_kernel (grid0.coords t) (ms0_0 t) (hs0_0 t) (ms0_1 t) (hs0_1 t) (ms0_2 t) (hs0_2 t) (ms0_3 t) (hs0_3 t) (ms0_4 t) (hs0_4 t) := rfl

/-! ## The body's two runs -/

set_option maxHeartbeats 1000000 in
/-- The pieces the body's stores leave in the output's staging memref (last first) when the second grid coordinate is
    zero, with the proof that on whole staging memrefs — the four inputs' at their contents, the output's at anything —
    the body runs to a continuation that holds the inputs' as they were and the output's with these pieces written. -/
noncomputable def kernelRun_reset (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : cond0 i)
    (x0 : Vec F S1024x256 .f32) (x1 : Vec F S1024x256 .f32) (x2 : Vec F S1024x1 .i32) (x3 : Vec F S1x1024 .i32) :
    { L : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The pieces the body's one store leaves in the output's staging memref when the second grid coordinate is not zero,
    with the proof that on whole staging memrefs — the four inputs' at their contents, the output's at its running
    contents `xo` — the body runs to a continuation that holds the inputs' as they were and the output's with these
    pieces written. -/
noncomputable def kernelRun_acc (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1024x1 .f32) :
    { L : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.BodyOutK.lean ====
/-
  What each of the body's two cases leaves in the output's staging buffer, as a payload of the skeleton.

  The pieces each run found cover the block (its last store is of the whole column), so the buffer's contents are a
  function of the pieces alone; read back, the accumulate case leaves `k0_pay1 (k0_pay3 xo) (k0_pay4 i x0 x1 x2 x3)`
  over the running column `xo`, and the reset case the same over the zero column `k0_pay2` it stored first and
  read back. The payloads stay folded: nothing here looks inside the arithmetic.
-/
import proofs.«140798_j17523466567855_1_alg».proof.Proof.BodyK
import Idealize.ShloMosaic.Lib.Pipeline.Value

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each case leaves in the output's staging buffer -/

/-- One staging buffer of the output window, through which its contents are stated (the choice does not matter:
    covering writes read the same through any view of the shape). -/
abbrev VO : View sig .tc .vmem S1024x1 .f32 := (Memref.whole cc0_stg4_0 : Memref sig .tc .vmem S1024x1 .f32).view

/-- The offsets of the body's rectangles are all zero. -/
theorem hz : (![0, 0] : Fin 2 → Nat) = fun _ => 0 := funext fun a => by fin_cases a <;> rfl

/-- In the reset case the written pieces (two stores of the whole column) cover the block. -/
theorem cover_reset (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : cond0 i)
    (x0 : Vec F S1024x256 .f32) (x1 : Vec F S1024x256 .f32) (x2 : Vec F S1024x1 .i32) (x3 : Vec F S1x1024 .i32) (y : S1024x1.Idx) :
    ∃ pc ∈ (kernelRun_reset c i arg2 harg2 arg3 harg3 arg4 harg4 arg5 harg5 arg6 harg6 hc0 x0 x1 x2 x3).1, y ∈ pc.1.set :=
  View.cover_of_tiledL (kernelRun_reset c i arg2 harg2 arg3 harg3 arg4 harg4 arg5 harg5 arg6 harg6 hc0 x0 x1 x2 x3).1 S1024x1.size (by sl_kernel_rfl) y

/-- What the reset case leaves in the output's staging buffer: its pieces read back over junk. -/
def out_reset (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : cond0 i)
    (x0 : Vec F S1024x256 .f32) (x1 : Vec F S1024x256 .f32) (x2 : Vec F S1024x1 .i32) (x3 : Vec F S1x1024 .i32) : Vec F S1024x1 .f32 :=
  VO.read (Elt F) (VO.writes (Elt F) VO.junk (kernelRun_reset c i arg2 harg2 arg3 harg3 arg4 harg4 arg5 harg5 arg6 harg6 hc0 x0 x1 x2 x3).1)

/-- In the accumulate case the one written piece (a store of the whole column) covers the block. -/
theorem cover_acc (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1024x1 .f32) (y : S1024x1.Idx) :
    ∃ pc ∈ (kernelRun_acc c i arg2 harg2 arg3 harg3 arg4 harg4 arg5 harg5 arg6 harg6 hc0 x0 x1 x2 x3 xo).1, y ∈ pc.1.set :=
  View.cover_of_tiledL (kernelRun_acc c i arg2 harg2 arg3 harg3 arg4 harg4 arg5 harg5 arg6 harg6 hc0 x0 x1 x2 x3 xo).1 S1024x1.size (by sl_kernel_rfl) y

/-- What the accumulate case leaves in the output's staging buffer: its piece read back over junk. -/
def out_acc (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1024x1 .f32) : Vec F S1024x1 .f32 :=
  VO.read (Elt F) (VO.writes (Elt F) VO.junk (kernelRun_acc c i arg2 harg2 arg3 harg3 arg4 harg4 arg5 harg5 arg6 harg6 hc0 x0 x1 x2 x3 xo).1)

/-! ## The two pieces as payloads -/

/-- THE ACCUMULATE CASE: the body leaves the running column `xo` plus this point's row sums — the payload of its one
    covering store, each of whose loads reads a whole buffer. -/
theorem out_acc_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1024x1 .f32) :
    out_acc c i arg2 harg2 arg3 harg3 arg4 harg4 arg5 harg5 arg6 harg6 hc0 x0 x1 x2 x3 xo = k0_pay1 (k0_pay3 xo) (k0_pay4 i x0 x1 x2 x3) := by
  unfold out_acc
  rw [View.read_writes_eq_canon _ _ _ (cover_acc c i arg2 harg2 arg3 harg3 arg4 harg4 arg5 harg5 arg6 harg6 hc0 x0 x1 x2 x3 xo)]
  unfold kernelRun_acc
  dsimp only
  rw [View.canon_unit_zero hz]
  simp only [View.readAt_eq_ld, harg2.read_unread, harg3.read_unread, harg4.read_unread, harg5.read_unread, harg6.read_unread,
    View.ld_unit_zero (S := S1024x1) hz, View.ld_unit_zero (S := S1024x256) hz, View.ld_unit_zero (S := S1x1024) hz]

/-- THE RESET CASE: the body stores the zero column, reads it back, and leaves it plus this point's row sums. -/
theorem out_reset_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (hc0 : cond0 i)
    (x0 : Vec F S1024x256 .f32) (x1 : Vec F S1024x256 .f32) (x2 : Vec F S1024x1 .i32) (x3 : Vec F S1x1024 .i32) :
    out_reset c i arg2 harg2 arg3 harg3 arg4 harg4 arg5 harg5 arg6 harg6 hc0 x0 x1 x2 x3 = k0_pay1 (k0_pay3 (k0_pay2 (F := F))) (k0_pay4 i x0 x1 x2 x3) := by
  unfold out_reset
  rw [View.read_writes_eq_canon _ _ _ (cover_reset c i arg2 harg2 arg3 harg3 arg4 harg4 arg5 harg5 arg6 harg6 hc0 x0 x1 x2 x3)]
  unfold kernelRun_reset
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread,
    View.ld_unit_zero (S := S1024x1) hz, View.ld_unit_zero (S := S1024x256) hz, View.ld_unit_zero (S := S1x1024) hz]

end Cert.Kernel.Hand

end
-- ==== Proof.KDatK.lean ====
/-
  The pipeline's proof data and the body obligation.

  The output window's block index depends on the first grid coordinate only, so along a row of the grid its staging
  buffer is an accumulator: the first point of the row stores the zero column and adds its row sums, each later point
  adds its own, and the last point of the row writes the block back. `outsAt` is what that buffer holds after the body
  at each point, by recursion on the point; the proof data states it for the output window and each input window's
  block for the inputs; the body obligation follows from the body's two runs, the case chosen by the closed form of
  the branch condition.
-/
import proofs.«140798_j17523466567855_1_alg».proof.Proof.EntryK
import proofs.«140798_j17523466567855_1_alg».proof.Proof.BodyOutK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the output's staging buffer holds after each point -/

/-- What the output's staging buffer holds after the body at position `n`: at the first point of a row of the grid
    the reset case's contents, at every other point the accumulate case's over what the point before left (the
    buffer is not written back between), each at the point's memrefs and input blocks. -/
def outsAt (c : Dev nD) : (n : ℕ) → n < cfg0.N → Vec F S1024x1 .f32
  | 0, hn => out_reset c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      out_reset c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out_acc c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- `outsAt` at the first point of a row: the reset case's contents. -/
theorem outsAt_reset (c : Dev nD) (t : Fin cfg0.N) (h0 : t.val % 8 = 0) :
    outsAt m c t.val t.isLt = out_reset c (grid0.coords t) (ms0_0 t) (hs0_0 t) (ms0_1 t) (hs0_1 t) (ms0_2 t) (hs0_2 t) (ms0_3 t) (hs0_3 t) (ms0_4 t) (hs0_4 t) ((hcond0 t).mpr h0) (iblk m c 0 t) (iblk m c 1 t) (iblk m c 2 t) (iblk m c 3 t) := by
  obtain ⟨n, hn⟩ := t
  cases n with
  | zero => exact rfl
  | succ n => exact (dif_pos h0).trans rfl

/-- `outsAt` at any other point: the accumulate case's contents, over what the point before left. -/
theorem outsAt_acc (c : Dev nD) (t : Fin cfg0.N) (h0 : ¬t.val % 8 = 0) :
    outsAt m c t.val t.isLt = out_acc c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt`; the scoped rest and the generator register as
    the invariant; nothing owed; the first two windows, which read the same array, hold a half of it each, the
    others their whole arrays. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outsAt m c t.val t.isLt := by dsimp only [dats]

/-- The shares held of the windows' arrays. -/
theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]

/-- The invariant and what the core owes, at every point. -/
theorem Phi_eq (c : Dev nD) (t : Fin (cfg0.N + 1)) : (dats m 0 c).Φ t = Pipeline.ΦA spec0 c := by dsimp only [dats]
theorem owed_eq (c : Dev nD) (t : Fin (cfg0.N + 1)) : (dats m 0 c).owed t = 0 := by dsimp only [dats]

/-- Each input's current staging buffer holds its block at every point, fetched there or not. -/
theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d

/-- At a point that is not the first of its row the output's current staging buffer holds what the body left at the
    point before: the point is not the first of the grid, and the point before — not the last of a row — did not
    write the buffer back; the window is live and uncut. -/
theorem before4_acc (c : Dev nD) (t : Fin cfg0.N) (h0 : ¬t.val % 8 = 0) (d) :
    (dats m 0 c).before 4 t d = outsAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks; the closed form of the condition says which case
    the point is in; in the accumulate case the output's memref holds what the point before left; so that case's
    run applies, and what it leaves is `outsAt` at the point. The invariant passes through unread; the core owes
    nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  have hN : t.val < 64 := lt_of_lt_of_eq t.isLt (show cfg0.N = 64 from N_0)
  by_cases h0 : t.val % 8 = 0
  · rw [outsAt_reset m c t h0]
    unfold out_reset
    iintro ⟨HΦ, Ho, ⟨%d0, H0⟩, ⟨%d1, H1⟩, ⟨%d2, H2⟩, ⟨%d3, H3⟩, ⟨%d4, H4⟩⟩
    iapply ((kernelRun_reset c (grid0.coords t) (ms0_0 t) (hs0_0 t) (ms0_1 t) (hs0_1 t) (ms0_2 t) (hs0_2 t) (ms0_3 t) (hs0_3 t) (ms0_4 t) (hs0_4 t) ((hcond0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_reset c (grid0.coords t) (ms0_0 t) (hs0_0 t) (ms0_1 t) (hs0_1 t) (ms0_2 t) (hs0_2 t) (ms0_3 t) (hs0_3 t) (ms0_4 t) (hs0_4 t) ((hcond0 t).mpr h0) (iblk m c 0 t) (iblk m c 1 t) (iblk m c 2 t) (iblk m c 3 t))
  · rw [outsAt_acc m c t h0]
    simp only [before4_acc m c t h0]
    unfold out_acc
    iintro ⟨HΦ, Ho, ⟨%d0, H0⟩, ⟨%d1, H1⟩, ⟨%d2, H2⟩, ⟨%d3, H3⟩, ⟨%d4, H4⟩⟩
    iapply ((kernelRun_acc c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk m c 0 t) (iblk m c 1 t) (iblk m c 2 t) (iblk m c 3 t) (outsAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_acc c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk m c 0 t) (iblk m c 1 t) (iblk m c 2 t) (iblk m c 3 t) (outsAt m c (t.val - 1) (Nat.lt_of_le_of_lt (Nat.sub_le _ _) t.isLt)))

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRunK.lean ====
/-
  The kernel's run with the region's proof data: the region's output column after the last grid point goes through
  the later operations to the result; the argument arrays end as launched (the frame).
-/
import proofs.«140798_j17523466567855_1_alg».proof.Proof.Gen.Kernel.Launch
import proofs.«140798_j17523466567855_1_alg».proof.Proof.Gen.Kernel.Skeleton
import proofs.«140798_j17523466567855_1_alg».proof.Proof.Gen.Kernel.Points
import Idealize.ShloMosaic.Lib.Pipeline.Frame
import Idealize.ShloMosaic.Lib.Pipeline.FrameBody
import Idealize.ShloMosaic.Lib.Pipeline.FrameSuffix
import proofs.«140798_j17523466567855_1_alg».proof.Proof.KFrameK
import proofs.«140798_j17523466567855_1_alg».proof.Proof.KDatK
set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates; the result buffer holds what the operations after the region compute
    from the output column as the grid leaves it, and the two arguments are unchanged. -/
theorem run_main : θ_run defs (onTc (τ := τ) (main (F := F))) (s₀ m ρ) (fun r => ∀ c : Dev nD,
      r.2.mem ((c.tc : Thread nD τ).loc main_v9) = Vt m c ((dats m 0 c).arrAt 4 cfg0.N) main_v9
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_around m ρ (dats m) (fun c => (body_obligation m c).loose) (A_eq m) (q_0 m) (q_1 m) (q_2 m) (q_3 m) (Phi_eq m) (owed_eq m)

/-- The frame: the program runs to the end, faults nowhere and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.Spec.lean ====
/-
  The quantity both programs compute, over the extended reals.

  From a matrix `xn` of 8192 rows of length 256 and a label per row:
  `sim i j` is the inner product of rows `i` and `j`; a pair `i < j` of equal labels contributes `1 - sim i j`,
  a pair `i < j` of different labels contributes `max (sim i j - 0.3) 0`, every other pair `0`; the loss is the
  sum of all contributions divided by the number of pairs `8192 · 8191 / 2`.  The float literals are kept as the
  words both programs print (the same words on both sides are never evaluated).
-/
import Idealize.ShloMosaic.PureOps.Ideal
import Idealize.ShloMosaic.Lib.ValueIdx

noncomputable section

namespace Cert.PairLoss

open Idealize.ShloMosaic Idealize.ShloMosaic.ValueIdx

/-- The inner product of rows `i` and `j`. -/
def sim (xn : (⟨2, ![8192, 256]⟩ : Shape).Idx → EReal) (i j : Fin 8192) : EReal :=
  ∑ k : Fin 256, xn (ix2 i k) * xn (ix2 j k)

/-- What the ordered pair `(i, j)` contributes: nothing unless `i < j`. -/
def pair (xn : (⟨2, ![8192, 256]⟩ : Shape).Idx → EReal) (lbl : (⟨1, ![8192]⟩ : Shape).Idx → BitVec 32) (i j : Fin 8192) : EReal :=
  if i.val < j.val then
    (if lbl (ix1 i) = lbl (ix1 j) then Ideal.ofBits .f32 0x3F800000#32 - sim xn i j
     else max (sim xn i j - Ideal.ofBits .f32 0x3E99999A#32) (Ideal.ofBits .f32 0x00000000#32))
  else Ideal.ofBits .f32 0x00000000#32

/-- The sum over all ordered pairs. -/
def total (xn : (⟨2, ![8192, 256]⟩ : Shape).Idx → EReal) (lbl : (⟨1, ![8192]⟩ : Shape).Idx → BitVec 32) : EReal :=
  ∑ i : Fin 8192, ∑ j : Fin 8192, pair xn lbl i j

/-- The loss: the total over the number of pairs (the word `0x4BFFF800` is `33550336 = 8192 · 8191 / 2`). -/
def loss (xn : (⟨2, ![8192, 256]⟩ : Shape).Idx → EReal) (lbl : (⟨1, ![8192]⟩ : Shape).Idx → BitVec 32) : EReal :=
  Ideal.div (total xn lbl) (Ideal.ofBits .f32 0x4BFFF800#32)

end Cert.PairLoss

end
-- ==== Proof.RefValue.lean ====
/-
  The reference program read at the ideal instance is the specification's loss.

  Entry (i, j) of the reference's masked matrix is the pair contribution pair xn lbl i j, where xn is the normalised
  matrix (kept opaque): its mask "not (i >= j)" on 32-bit words of numbers below 8192 is i < j, its Gram entry is the
  inner product of rows i and j, and its label test is equality of the two labels.  The reduction over both axes is
  the initial value 0 plus the sum over all index pairs, which is the double sum of the specification; the final
  quotient is the specification's.
-/
import proofs.«140798_j17523466567855_1_alg».proof.Proof.Gen.ReferenceIdeal.Run
import proofs.«140798_j17523466567855_1_alg».proof.Proof.Gen.ReferenceIdeal.Read
import proofs.«140798_j17523466567855_1_alg».proof.Proof.Spec
import Idealize.ShloMosaic.Lib.WordArith

noncomputable section

namespace Cert.ReferenceIdeal.RefValue

open Cert.ReferenceIdeal Cert.ReferenceIdeal.Gen Cert.ReferenceIdeal.Read Cert.PairLoss
open Idealize.ShloMosaic Idealize.ShloMosaic.ValueIdx Idealize.ShloMosaic.TcCoe Idealize.SL.Sem Idealize.ShloMosaic.StableHlo
open Idealize.ShloMosaic.WordArith

/-! ## Words -/

/-- On numbers below 8192 the signed comparison "a + 0 >= b" of their 32-bit words is the comparison of the numbers. -/
theorem sge_bit (a b : Nat) (ha : a < 8192) (hb : b < 8192) :
    IntOp.cmpi .sge (IntOp.addi (BitVec.ofNat 32 a) 0#32) (BitVec.ofNat 32 b) = BitVec.ofBool (decide (b ≤ a)) := by
  unfold IntOp.cmpi IntOp.addi
  rw [BitVec.add_zero]
  congr 1
  rw [Bool.eq_iff_iff, BitVec.sle_iff_toInt_le, toInt_ofNat_small _ (by omega), toInt_ofNat_small _ (by omega),
    decide_eq_true_iff]
  omega

/-- The reference's mask keeps an entry exactly when its row number is below its column number. -/
theorem select_upper {α : Type} (a b : Nat) (ha : a < 8192) (hb : b < 8192) (X Y : α) :
    Scalar.select (Scalar.select (IntOp.cmpi .sge (IntOp.addi (BitVec.ofNat 32 a) 0#32) (BitVec.ofNat 32 b)) 0#1 1#1) X Y
      = if a < b then X else Y := by
  rw [sge_bit a b ha hb]
  by_cases h : b ≤ a
  · rw [decide_eq_true h, if_neg (by omega)]; rfl
  · rw [decide_eq_false h, if_pos (by omega)]; rfl

/-- A select on the equality bit of two words is the "if" on their equality. -/
theorem select_eq {α : Type} (u v : BitVec 32) (X Y : α) :
    Scalar.select (IntOp.cmpi .eq u v) X Y = if u = v then X else Y := by
  unfold IntOp.cmpi Scalar.select
  by_cases h : u = v
  · subst h; simp
  · have hb : (u == v) = false := beq_eq_false_iff_ne.mpr h
    simp [h, hb]

/-! ## Indices -/

theorem lidx_at (a b : Fin 8192) (k : Fin 256) : lidx_main_v6 (ix2 a b) k = ix2 a k := by
  funext d; match d with | ⟨0, _⟩ => rfl | ⟨1, _⟩ => rfl

theorem ridx_at (a b : Fin 8192) (k : Fin 256) : idx_main_v5 (ridx_main_v6 (ix2 a b) k) = ix2 b k := by
  funext d; match d with | ⟨0, _⟩ => rfl | ⟨1, _⟩ => rfl

theorem row_label_at (a b : Fin 8192) : idx_main_v7 (idx_main_v9 (ix2 a b)) = ix1 a := by
  funext d; match d with | ⟨0, _⟩ => rfl

theorem col_label_at (a b : Fin 8192) : idx_main_v8 (idx_main_v10 (ix2 a b)) = ix1 b := by
  funext d; match d with | ⟨0, _⟩ => rfl

/-! ## The entries -/

/-- The Gram entry (i, j) is the inner product of rows i and j of the normalised matrix. -/
theorem gram_at (x : (⟨S8192x256, .f32⟩ : BufTy).Contents (Elt Ideal)) (a b : Fin 8192) :
    val_main_v6 (F := Ideal) x (ix2 a b) = sim (val_main_v4 (F := Ideal) x) a b := by
  rw [val_main_v6_apply]
  unfold sim
  refine Finset.sum_congr rfl fun k _ => ?_
  rw [val_main_v5_apply, lidx_at, ridx_at]

/-- The masked entry (i, j) is the contribution of the ordered pair (i, j). -/
theorem masked_at (x : (⟨S8192x256, .f32⟩ : BufTy).Contents (Elt Ideal)) (l : (⟨S8192, .i32⟩ : BufTy).Contents (Elt Ideal))
    (a b : Fin 8192) :
    val_main_v21 (F := Ideal) x l (ix2 a b) = pair (val_main_v4 (F := Ideal) x) l a b := by
  rw [val_main_v21_apply, val_main_v20_apply, val_main_call2_v4_apply, val_main_call2_v2_apply, val_main_call2_v0_apply,
    val_main_call2_v1_apply, val_main_call2_c_apply, val_main_call2_v3_apply, val_main_call2_v5_apply,
    val_main_call2_c_0_apply, val_main_v19_apply, val_main_c_apply, val_main_call3_v1_apply, val_main_call3_v0_apply,
    val_main_cst_3_apply, val_main_v18_apply, val_main_v11_apply, val_main_v9_apply, val_main_v7_apply,
    val_main_v10_apply, val_main_v8_apply, val_main_v13_apply, val_main_v12_apply, val_main_cst_0_apply,
    val_main_v17_apply, val_main_v15_apply, val_main_v14_apply, val_main_cst_1_apply, val_main_v16_apply,
    val_main_cst_2_apply, gram_at, row_label_at, col_label_at]
  rw [show ((ix2 a b : S8192x8192.Idx) 0) = a from rfl, show ((ix2 a b : S8192x8192.Idx) 1) = b from rfl,
    select_upper a.val b.val a.isLt b.isLt, select_eq]
  rfl

/-! ## The result -/

/-- The reference's result is the loss of the normalised matrix and the labels. -/
theorem ref_eq (x : (⟨S8192x256, .f32⟩ : BufTy).Contents (Elt Ideal)) (l : (⟨S8192, .i32⟩ : BufTy).Contents (Elt Ideal)) :
    val_main_v23 (F := Ideal) x l = fun _ => loss (val_main_v4 (F := Ideal) x) l := by
  funext i
  rw [val_main_v23_apply, val_main_v22_apply, val_main_cst_4_apply, val_main_cst_5_apply, Ideal.hostDivf_def,
    Ideal.ofBits_def, Ideal.ofBits_def, Ideal.ofBits_zero_f32, zero_add, sum_idx2]
  unfold loss total
  refine congrArg (Ideal.div · _) ?_
  exact Finset.sum_congr rfl fun a _ => Finset.sum_congr rfl fun b _ => masked_at x l a b

/-- Every run of the reference ends with the loss of the normalised matrix and the labels in its result, the arguments
    unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v23)
          = (fun _ => loss (val_main_v4 (F := Ideal) (m' ((c.tc : Thread nD τ).loc main_arg0)))
              (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono
    (fun _ h c => ⟨(h c).1.trans ((val_main_v23_eq (F := Ideal) _ _).trans (ref_eq _ _)), (h c).2⟩)
    (Cert.ReferenceIdeal.Value.run (F := Ideal) m' ρ')

end Cert.ReferenceIdeal.RefValue

end
-- ==== Proof.KArr.lean ====
/-
  From the blocks to the arrays.

  The output's row block `b` (rows 1024·b … 1024·b + 1023 of the result column) is written back once, by the last point
  of grid row `b`; so the result array is, row by row, what the output's staging buffer held after that point. The
  grid point `t` has coordinates (t / 8, t % 8); at it the two matrix windows hold row blocks t / 8 and t % 8 of the
  normalised matrix, the two label windows the same blocks of the labels as a column and as a row. And what the
  staging buffer holds after a point is the skeleton's payload of the point's blocks over the zero column (at the
  first point of a row) or over what the point before left (elsewhere).
-/
import proofs.«140798_j17523466567855_1_alg».proof.Proof.KDat
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

variable (m : (ℓ : Loc nD τ sig) → Buf (Elt F) ℓ)

/-! ## The staging buffer after a point, as a payload -/

/-- After the first point of a grid row the output's staging buffer holds the zero column plus the point's row sums. -/
theorem outsAt_first (c : Dev nD) (t : Fin cfg0.N) (h0 : t.val % 8 = 0) :
    outsAt m c t.val t.isLt = k0_pay1 (k0_pay3 (k0_pay2 (F := F))) (k0_pay4 (grid0.coords t) (iblk m c 0 t) (iblk m c 1 t) (iblk m c 2 t) (iblk m c 3 t)) :=
  (outsAt_reset m c t h0).trans (out_reset_eq c (grid0.coords t) (ms0_0 t) (hs0_0 t) (ms0_1 t) (hs0_1 t) (ms0_2 t) (hs0_2 t) (ms0_3 t) (hs0_3 t) (ms0_4 t) (hs0_4 t) ((hcond0 t).mpr h0) (iblk m c 0 t) (iblk m c 1 t) (iblk m c 2 t) (iblk m c 3 t))

/-- After any other point it holds what the point before left plus the point's row sums. -/
theorem outsAt_next (c : Dev nD) (t : Fin cfg0.N) (h0 : ¬t.val % 8 = 0) :
    outsAt m c t.val t.isLt = k0_pay1 (k0_pay3 (outsAt m c (t.val - 1) (Nat.lt_of_le_of_lt (Nat.sub_le _ _) t.isLt))) (k0_pay4 (grid0.coords t) (iblk m c 0 t) (iblk m c 1 t) (iblk m c 2 t) (iblk m c 3 t)) :=
  (outsAt_acc m c t h0).trans (out_acc_eq c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk m c 0 t) (iblk m c 1 t) (iblk m c 2 t) (iblk m c 3 t) (outsAt m c (t.val - 1) (Nat.lt_of_le_of_lt (Nat.sub_le _ _) t.isLt)))

/-! ## The grid coordinates and the windows' block indices -/

/-- Point `t` of the 8×8 grid has coordinates (t / 8, t % 8) — decided over the grid. -/
theorem coords_facts : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The printed index maps, decided over the grid: the first matrix window, the label column and the output follow
    the first coordinate, the second matrix window and the label row the second. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-! ## The input blocks read at coordinates -/

/-- The first matrix window at point `t` holds row block `t / 8` of the normalised matrix. -/
theorem iblk0_at (c : Dev nD) (t : Fin cfg0.N) (r : Fin 1024) (k : Fin 256) (h : t.val / 8 * 1024 + r.val < 8192) :
    iblk m c 0 t (ix2 r k) = V m c main_v4 (ix2 ⟨t.val / 8 * 1024 + r.val, h⟩ k) := by
  show V m c main_v4 (((cfg0.win 0).blk t).view.emb (ix2 r k)) = V m c main_v4 (ix2 ⟨t.val / 8 * 1024 + r.val, h⟩ k)
  refine congrArg _ ?_
  obtain ⟨e0, e1, -⟩ := idx_facts t
  funext a; apply Fin.ext
  match a with
  | ⟨0, _⟩ => show win0_0.index t (0 : Fin 2) * 1024 + 1 * r.val = t.val / 8 * 1024 + r.val; omega
  | ⟨1, _⟩ => show win0_0.index t (1 : Fin 2) * 256 + 1 * k.val = k.val; omega

/-- The second matrix window at point `t` holds row block `t % 8` of the normalised matrix. -/
theorem iblk1_at (c : Dev nD) (t : Fin cfg0.N) (r : Fin 1024) (k : Fin 256) (h : t.val % 8 * 1024 + r.val < 8192) :
    iblk m c 1 t (ix2 r k) = V m c main_v4 (ix2 ⟨t.val % 8 * 1024 + r.val, h⟩ k) := by
  show V m c main_v4 (((cfg0.win 1).blk t).view.emb (ix2 r k)) = V m c main_v4 (ix2 ⟨t.val % 8 * 1024 + r.val, h⟩ k)
  refine congrArg _ ?_
  obtain ⟨-, -, e0, e1, -⟩ := idx_facts t
  funext a; apply Fin.ext
  match a with
  | ⟨0, _⟩ => show win0_1.index t (0 : Fin 2) * 1024 + 1 * r.val = t.val % 8 * 1024 + r.val; omega
  | ⟨1, _⟩ => show win0_1.index t (1 : Fin 2) * 256 + 1 * k.val = k.val; omega

/-- The label column's window at point `t` holds rows `1024·(t / 8) …` of the labels as a column. -/
theorem iblk2_at (c : Dev nD) (t : Fin cfg0.N) (r : Fin 1024) (h : t.val / 8 * 1024 + r.val < 8192) :
    iblk m c 2 t (ix2 r (0 : Fin 1)) = V m c main_v5 (ix2 ⟨t.val / 8 * 1024 + r.val, h⟩ (0 : Fin 1)) := by
  show V m c main_v5 (((cfg0.win 2).blk t).view.emb (ix2 r (0 : Fin 1))) = V m c main_v5 (ix2 ⟨t.val / 8 * 1024 + r.val, h⟩ (0 : Fin 1))
  refine congrArg _ ?_
  obtain ⟨-, -, -, -, e0, e1, -⟩ := idx_facts t
  funext a; apply Fin.ext
  match a with
  | ⟨0, _⟩ => show win0_2.index t (0 : Fin 2) * 1024 + 1 * r.val = t.val / 8 * 1024 + r.val; omega
  | ⟨1, _⟩ => show win0_2.index t (1 : Fin 2) * 1 + 1 * 0 = 0; omega

/-- The label row's window at point `t` holds columns `1024·(t % 8) …` of the labels as a row. -/
theorem iblk3_at (c : Dev nD) (t : Fin cfg0.N) (cc : Fin 1024) (h : t.val % 8 * 1024 + cc.val < 8192) :
    iblk m c 3 t (ix2 (0 : Fin 1) cc) = V m c main_v6 (ix2 (0 : Fin 1) ⟨t.val % 8 * 1024 + cc.val, h⟩) := by
  show V m c main_v6 (((cfg0.win 3).blk t).view.emb (ix2 (0 : Fin 1) cc)) = V m c main_v6 (ix2 (0 : Fin 1) ⟨t.val % 8 * 1024 + cc.val, h⟩)
  refine congrArg _ ?_
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 1024 + 1 * cc.val = t.val % 8 * 1024 + cc.val; omega

/-! ## The result array -/

/-- `outsAt` at equal points and equal indices. -/
theorem outsAt_congr (c : Dev nD) {n n' : ℕ} (hn : n < cfg0.N) (hn' : n' < cfg0.N) (e : n = n')
    {j j' : S1024x1.Idx} (ej : j = j') : outsAt m c n hn j = outsAt m c n' hn' j' := by
  subst e; subst ej; rfl

/-- The result column as one function of the row: row `j`, in row block `j / 1024`, is what the output's staging
    buffer held at row `j % 1024` after the last point of that grid row. -/
def rowsOut (c : Dev nD) : S8192x1.Idx → Elt F .f32 := fun j =>
  outsAt m c (8 * ((j 0).val / 1024) + 7)
    (by have h : (j 0).val < 8192 := idx2_lt0 j
        rw [show cfg0.N = 64 from N_0]; omega)
    (ix2 (⟨(j 0).val % 1024, Nat.mod_lt _ (by decide)⟩ : Fin 1024) (0 : Fin 1))

/-- What a point that writes the output's block back writes is its block of `rowsOut`: such a point is the last of
    its grid row, and its block is the row block of the grid row. -/
theorem flushed4_eq (c : Dev nD) (t : Fin cfg0.N) (hf : (cfg0.win 4).flush t = true) :
    (dats m 0 c).flushed 4 t = ((cfg0.win 4).blk t).view.read (Elt F) (rowsOut m c) := by
  have h7 : t.val % 8 = 7 := (flush0_4 t).mp hf
  have hN : t.val < 64 := lt_of_lt_of_eq t.isLt (show cfg0.N = 64 from N_0)
  show (cfg0.win 4).cut (grid0.coords t) ((dats m 0 c).after 4 t) = _
  rw [after_4]
  obtain ⟨-, -, -, -, -, -, -, -, e0, e1⟩ := idx_facts t
  funext j
  have hj0 : (j 0).val < 1024 := (j 0).isLt
  have hj1 : (j 1).val < 1 := (j 1).isLt
  show outsAt m c t.val t.isLt j = rowsOut m c (((cfg0.win 4).blk t).view.emb j)
  have hemb : ((((cfg0.win 4).blk t).view.emb j) 0).val = win0_4.index t (0 : Fin 2) * 1024 + 1 * (j 0).val := rfl
  unfold rowsOut
  refine outsAt_congr m c _ _ (by rw [hemb]; omega) ?_
  funext a; apply Fin.ext
  match a with
  | ⟨0, _⟩ => show (j 0).val = ((((cfg0.win 4).blk t).view.emb j) 0).val % 1024; rw [hemb]; omega
  | ⟨1, _⟩ => show (j 1).val = 0; omega

/-- An index of the result column is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v7).slice (win0_4.rect t)).set ↔ _
  rw [View.set_slice_whole, Rect.mem_set_unit]
  exact Iff.rfl

/-- Every row of the result column is in the block some point writes back: the last point of its grid row. -/
theorem cover4 (i : S8192x1.Idx) : ∃ t : Fin cfg0.N, (cfg0.win 4).flush t = true ∧ i ∈ ((cfg0.win 4).blk t).view.set := by
  have hi0 : (i 0).val < 8192 := idx2_lt0 i
  have hi1 : (i 1).val < 1 := idx2_lt1 i
  have hlt : 8 * ((i 0).val / 1024) + 7 < cfg0.N := by rw [show cfg0.N = 64 from N_0]; omega
  refine ⟨⟨8 * ((i 0).val / 1024) + 7, hlt⟩, (flush0_4 _).mpr (by show (8 * ((i 0).val / 1024) + 7) % 8 = 7; omega), ?_⟩
  obtain ⟨-, -, -, -, -, -, -, -, e0, e1⟩ := idx_facts ⟨8 * ((i 0).val / 1024) + 7, hlt⟩
  have e0' : win0_4.index ⟨8 * ((i 0).val / 1024) + 7, hlt⟩ (0 : Fin 2) = (8 * ((i 0).val / 1024) + 7) / 8 := e0
  rw [mem_blk4]
  intro a
  match a with
  | ⟨0, _⟩ => show win0_4.index ⟨8 * ((i 0).val / 1024) + 7, hlt⟩ (0 : Fin 2) * 1024 ≤ (i 0).val ∧ (i 0).val < win0_4.index ⟨8 * ((i 0).val / 1024) + 7, hlt⟩ (0 : Fin 2) * 1024 + 1024; omega
  | ⟨1, _⟩ => show win0_4.index ⟨8 * ((i 0).val / 1024) + 7, hlt⟩ (1 : Fin 2) * 1 ≤ (i 1).val ∧ (i 1).val < win0_4.index ⟨8 * ((i 0).val / 1024) + 7, hlt⟩ (1 : Fin 2) * 1 + 1; omega

/-- THE RESULT ARRAY after the run: `rowsOut`. -/
theorem arrAt4_eq (c : Dev nD) : (dats m 0 c).arrAt 4 cfg0.N = rowsOut m c :=
  (dats m 0 c).arrAt_eq_of_cover 4 (rowsOut m c) (fun t hf => flushed4_eq m c t hf) cover4

/-- Row `r` of row block `i0` of the result column is what the output's staging buffer held at row `r` after the
    last point of grid row `i0`. -/
theorem arrAt4 (c : Dev nD) (i0 : Fin 8) (r : Fin 1024) (h : i0.val * 1024 + r.val < 8192) (h' : 8 * i0.val + 7 < cfg0.N) :
    (dats m 0 c).arrAt 4 cfg0.N (ix2 (⟨i0.val * 1024 + r.val, h⟩ : Fin 8192) (0 : Fin 1)) = outsAt m c (8 * i0.val + 7) h' (ix2 r (0 : Fin 1)) := by
  rw [arrAt4_eq]
  have hi : i0.val < 8 := i0.isLt
  have hr : r.val < 1024 := r.isLt
  show outsAt m c (8 * ((i0.val * 1024 + r.val) / 1024) + 7) _ (ix2 (⟨(i0.val * 1024 + r.val) % 1024, _⟩ : Fin 1024) (0 : Fin 1)) = _
  refine outsAt_congr m c _ _ (by omega) ?_
  funext a; apply Fin.ext
  match a with
  | ⟨0, _⟩ => show (i0.val * 1024 + r.val) % 1024 = r.val; omega
  | ⟨1, _⟩ => rfl

end Cert.KernelIdeal.Hand

end
-- ==== Proof.Blocked.lean ====
/-
  The sum over all ordered pairs, regrouped by blocks of 1024 columns.

  A row's contributions are added block by block: starting from 0, step n adds the block's own sum (0 plus the sum over
  its 1024 columns).  After the 8 blocks the row's accumulator is the sum over all 8192 columns, so the total is the
  sum over the rows of the accumulators.  Only 0 + s = s and the regrouping of a finite sum are used.
-/
import proofs.«140798_j17523466567855_1_alg».proof.Proof.Spec
import Idealize.ShloMosaic.PureOps.Ideal.Laws

noncomputable section

namespace Cert.PairLoss

open Idealize.ShloMosaic Idealize.ShloMosaic.ValueIdx

/-- Column c of column block jb. -/
def col (jb : Fin 8) (c : Fin 1024) : Fin 8192 := ⟨jb.val * 1024 + c.val, by omega⟩

theorem col_val (jb : Fin 8) (c : Fin 1024) : (col jb c).val = jb.val * 1024 + c.val := rfl

/-- A column is its block and its place in the block. -/
def colEquiv : Fin 8 × Fin 1024 ≃ Fin 8192 where
  toFun p := col p.1 p.2
  invFun j := (⟨j.val / 1024, by omega⟩, ⟨j.val % 1024, by omega⟩)
  left_inv p := by
    obtain ⟨jb, c⟩ := p
    refine Prod.ext (Fin.ext ?_) (Fin.ext ?_)
    · show (jb.val * 1024 + c.val) / 1024 = jb.val
      omega
    · show (jb.val * 1024 + c.val) % 1024 = c.val
      omega
  right_inv j := by
    refine Fin.ext ?_
    show j.val / 1024 * 1024 + j.val % 1024 = j.val
    omega

/-- A sum over the 8192 columns is the sum over the 8 blocks of the sums over each block's 1024 columns. -/
theorem sum_blocks (f : Fin 8192 → EReal) : ∑ j : Fin 8192, f j = ∑ jb : Fin 8, ∑ c : Fin 1024, f (col jb c) := by
  rw [← Equiv.sum_comp colEquiv f, Fintype.sum_prod_type]
  rfl

/-- What block jb adds to a row's accumulator: 0 plus the sum over the block's columns. -/
def blockSum (f : Fin 8192 → EReal) (jb : Fin 8) : EReal :=
  Ideal.ofBits .f32 0x00000000#32 + ∑ c : Fin 1024, f (col jb c)

/-- Row i's accumulator after n column blocks. -/
def rowAcc (xn : (⟨2, ![8192, 256]⟩ : Shape).Idx → EReal) (lbl : (⟨1, ![8192]⟩ : Shape).Idx → BitVec 32) (i : Fin 8192) :
    Nat → EReal
  | 0 => Ideal.ofBits .f32 0x00000000#32
  | n + 1 => rowAcc xn lbl i n + (if h : n < 8 then blockSum (pair xn lbl i) ⟨n, h⟩ else 0)

theorem rowAcc_zero (xn : (⟨2, ![8192, 256]⟩ : Shape).Idx → EReal) (lbl : (⟨1, ![8192]⟩ : Shape).Idx → BitVec 32)
    (i : Fin 8192) : rowAcc xn lbl i 0 = Ideal.ofBits .f32 0x00000000#32 := rfl

theorem rowAcc_succ (xn : (⟨2, ![8192, 256]⟩ : Shape).Idx → EReal) (lbl : (⟨1, ![8192]⟩ : Shape).Idx → BitVec 32)
    (i : Fin 8192) (n : Nat) (h : n < 8) :
    rowAcc xn lbl i (n + 1)
      = rowAcc xn lbl i n + (Ideal.ofBits .f32 0x00000000#32 + ∑ c : Fin 1024, pair xn lbl i (col ⟨n, h⟩ c)) := by
  show rowAcc xn lbl i n + (if h : n < 8 then blockSum (pair xn lbl i) ⟨n, h⟩ else 0) = _
  rw [dif_pos h]
  rfl

/-- After n ≤ 8 blocks the accumulator is the sum over the first n blocks. -/
theorem rowAcc_eq (xn : (⟨2, ![8192, 256]⟩ : Shape).Idx → EReal) (lbl : (⟨1, ![8192]⟩ : Shape).Idx → BitVec 32)
    (i : Fin 8192) (n : Nat) (hn : n ≤ 8) :
    rowAcc xn lbl i n
      = ∑ jb ∈ Finset.univ.filter (fun jb : Fin 8 => jb.val < n), ∑ c : Fin 1024, pair xn lbl i (col jb c) := by
  induction n with
  | zero =>
    rw [rowAcc_zero, Ideal.ofBits_zero_f32]
    refine (Finset.sum_eq_zero fun jb hjb => ?_).symm
    exact absurd (Finset.mem_filter.mp hjb).2 (Nat.not_lt_zero _)
  | succ n ih =>
    have hlt : n < 8 := by omega
    rw [rowAcc_succ xn lbl i n hlt, ih (by omega), Ideal.ofBits_zero_f32, zero_add]
    have hset : Finset.univ.filter (fun jb : Fin 8 => jb.val < n + 1)
        = insert (⟨n, hlt⟩ : Fin 8) (Finset.univ.filter (fun jb : Fin 8 => jb.val < n)) := by
      ext jb
      simp only [Finset.mem_filter, Finset.mem_univ, true_and, Finset.mem_insert, Fin.ext_iff]
      omega
    rw [hset, Finset.sum_insert (by simp), add_comm]

/-- The total is the sum over the rows of the accumulators after all 8 blocks. -/
theorem total_eq_blocked (xn : (⟨2, ![8192, 256]⟩ : Shape).Idx → EReal) (lbl : (⟨1, ![8192]⟩ : Shape).Idx → BitVec 32) :
    total xn lbl = ∑ i : Fin 8192, rowAcc xn lbl i 8 := by
  unfold total
  refine Finset.sum_congr rfl fun i _ => ?_
  rw [sum_blocks, rowAcc_eq xn lbl i 8 (le_refl _)]
  refine Finset.sum_congr ?_ fun _ _ => rfl
  ext jb
  simp only [Finset.mem_univ, Finset.mem_filter, true_and, true_iff]
  exact jb.isLt

end Cert.PairLoss

end
-- ==== Proof.Payload.lean ====
/-
  The kernel's payloads read at an index, at the ideal instance.

  A grid point (i0, i1) holds a block of 1024 rows (row block i0) and a block of 1024 columns (column block i1).  Its
  1024 x 1024 matrix of entries has, at (r, c), the contribution of the ordered pair (i0 * 1024 + r, i1 * 1024 + c):
  the mask "row number < column number" on 32-bit words of numbers below 8192 is the comparison of the numbers, the
  product with the transposed block is the inner product of the two rows, the label test is equality of the labels.
  The lane sum of row r is the sum over the block's 1024 columns.
-/
import proofs.«140798_j17523466567855_1_alg».proof.Proof.Gen.KernelIdeal.Skeleton
import proofs.«140798_j17523466567855_1_alg».proof.Proof.Spec
import proofs.«140798_j17523466567855_1_alg».proof.Proof.Blocked
import Idealize.ShloMosaic.PureOps.Ideal.Laws
import Idealize.ShloMosaic.Lib.ValueIdx
import Idealize.ShloMosaic.Lib.ValueLayout
import Idealize.ShloMosaic.Lib.Pipeline.Value
import Idealize.ShloMosaic.Lib.WordArith

noncomputable section

namespace Cert.KernelIdeal.PayValue

open Cert.KernelIdeal Cert.KernelIdeal.Gen Cert.PairLoss
open Idealize.ShloMosaic Idealize.ShloMosaic.ValueIdx Idealize.SL.Sem
open Idealize.ShloMosaic.WordArith

/-! ## The accumulator's payloads -/

/-- A vector of 1024 entries viewed as a column reads entry r at (r, 0). -/
theorem column_at {α : Type} (v : S1024.Idx → α) (h : S1024.ShapeCasts S1024x1) (r : Fin 1024) :
    shapeCast S1024x1 v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- The accumulator's update adds the lane sum of row r to entry (r, 0). -/
theorem pay1_at (v35 : FVec Ideal S1024x1 .f32) (v36 : FVec Ideal S1024 .f32) (r : Fin 1024) :
    k0_pay1 (F := Ideal) v35 v36 (ix2 r (0 : Fin 1)) = v35 (ix2 r (0 : Fin 1)) + v36 (ix1 r) := by
  show v35 (ix2 r (0 : Fin 1)) + shapeCast S1024x1 v36 shapeCasts_S1024_S1024x1 (ix2 r (0 : Fin 1)) = _
  rw [column_at]

/-- The accumulator's initial value is the zero word everywhere. -/
theorem pay2_at (j : S1024x1.Idx) : k0_pay2 (F := Ideal) j = Ideal.ofBits .f32 0x00000000#32 := rfl

/-- The accumulator as loaded is carried unchanged. -/
theorem pay3_eq (v34 : Vec Ideal S1024x1 .f32) : k0_pay3 (F := Ideal) v34 = v34 :=
  shapeCast_self v34 shapeCasts_S1024x1_S1024x1

/-! ## Words -/

/-- Row (or column) number a * 1024 + r as the 32-bit word the kernel computes. -/
theorem word_at (a r : Nat) (ha : a < 8) (hr : r < 1024) :
    IntOp.addi (Scalar.muli (BitVec.ofNat 32 a) 1024#32) (BitVec.ofNat 32 r) = BitVec.ofNat 32 (a * 1024 + r) := by
  show BitVec.ofNat 32 a * 1024#32 + BitVec.ofNat 32 r = _
  apply BitVec.eq_of_toNat_eq
  simp only [BitVec.toNat_add, BitVec.toNat_mul, BitVec.toNat_ofNat]
  omega

/-- On numbers below 8192 the signed comparison of the two words is the comparison of the numbers. -/
theorem slt_bit (a b r c : Nat) (ha : a < 8) (hb : b < 8) (hr : r < 1024) (hc : c < 1024) :
    IntOp.cmpi .slt (IntOp.addi (Scalar.muli (BitVec.ofNat 32 a) 1024#32) (BitVec.ofNat 32 r))
        (IntOp.addi (Scalar.muli (BitVec.ofNat 32 b) 1024#32) (BitVec.ofNat 32 c))
      = BitVec.ofBool (decide (a * 1024 + r < b * 1024 + c)) := by
  rw [word_at a r ha hr, word_at b c hb hc]
  unfold IntOp.cmpi
  congr 1
  rw [Bool.eq_iff_iff, BitVec.slt_iff_toInt_lt, toInt_ofNat_small _ (by omega), toInt_ofNat_small _ (by omega),
    decide_eq_true_iff]
  omega

/-- A select on a decided bit is the "if". -/
theorem select_ofBool {α : Type} (p : Prop) [Decidable p] (X Y : α) :
    Scalar.select (BitVec.ofBool (decide p)) X Y = if p then X else Y := by
  by_cases h : p
  · rw [decide_eq_true h, if_pos h]; rfl
  · rw [decide_eq_false h, if_neg h]; rfl

/-- A select on the equality bit of two words is the "if" on their equality. -/
theorem select_eq {α : Type} (u v : BitVec 32) (X Y : α) :
    Scalar.select (IntOp.cmpi .eq u v) X Y = if u = v then X else Y := by
  unfold IntOp.cmpi Scalar.select
  by_cases h : u = v
  · subst h; simp
  · have hb : (u == v) = false := beq_eq_false_iff_ne.mpr h
    simp [h, hb]

/-! ## The block's matrix of entries, piece by piece -/

/-- The contraction of the row block with the transposed column block. -/
abbrev D : DotDims S1024x256 S256x1024 S1024x1024 := dot_S1024x256_S256x1024_S1024x1024_1_0_0_1_n_n

/-- The product of the row block with the transposed column block. -/
def gram (v3 v5 : Vec Ideal S1024x256 .f32) : FVec Ideal S1024x1024 .f32 :=
  matmul D none (shapeCast S1024x256 v3 shapeCasts_S1024x256_S1024x256 : FVec Ideal S1024x256 .f32)
    (transpose S256x1024 [1, 0] (shapeCast S1024x256 v5 shapeCasts_S1024x256_S1024x256 : FVec Ideal S1024x256 .f32)
      transposes_S1024x256_p1_0_S256x1024 : FVec Ideal S256x1024 .f32)
    (constant (F := Ideal) S1024x1024 .f32 0x00000000#32)

/-- The bit "the row's label is the column's label". -/
def same (v9 : Vec Ideal S1024x1 .i32) (v11 : Vec Ideal S1x1024 .i32) : IVec S1024x1024 1 :=
  cmpi .eq (broadcastTo S1024x1024 (shapeCast S1024x1 v9 shapeCasts_S1024x1_S1024x1) broadcasts_S1024x1_S1024x1024)
    (broadcastTo S1024x1024 (shapeCast S1x1024 v11 shapeCasts_S1x1024_S1x1024) broadcasts_S1x1024_S1024x1024)

/-- The bit "the row's number is below the column's number". -/
def upper (i : grid0.Coords) : IVec S1024x1024 1 :=
  cmpi .slt
    (addi (broadcast S1024x1024 (Scalar.muli (BitVec.ofNat 32 (i 0).val) 1024#32)) (iota .tc S1024x1024 32 [0] iota_S1024x1024_d0_w32))
    (addi (broadcast S1024x1024 (Scalar.muli (BitVec.ofNat 32 (i 1).val) 1024#32)) (iota .tc S1024x1024 32 [1] iota_S1024x1024_d1_w32))

/-- The block's matrix of entries. -/
def entries (i : grid0.Coords) (v3 v5 : Vec Ideal S1024x256 .f32) (v9 : Vec Ideal S1024x1 .i32) (v11 : Vec Ideal S1x1024 .i32) :
    FVec Ideal S1024x1024 .f32 :=
  select (upper i)
    (select (same v9 v11)
      (subf (broadcast S1024x1024 (Scalar.ofBits (F := Ideal) .f32 0x3F800000#32)) (gram v3 v5))
      (maximumf (subf (gram v3 v5) (broadcast S1024x1024 (Scalar.ofBits (F := Ideal) .f32 0x3E99999A#32)))
        (broadcast S1024x1024 (Scalar.ofBits (F := Ideal) .f32 0x00000000#32))))
    (broadcast S1024x1024 (Scalar.ofBits (F := Ideal) .f32 0x00000000#32))

/-- The lane-sum payload is the lane sum of the block's matrix of entries. -/
theorem pay4_eq (i : grid0.Coords) (v3 v5 : Vec Ideal S1024x256 .f32) (v9 : Vec Ideal S1024x1 .i32) (v11 : Vec Ideal S1x1024 .i32) :
    k0_pay4 (F := Ideal) i v3 v5 v9 v11
      = multiReduction (F := Ideal) .add [1] S1024 (entries i v3 v5 v9 v11) 0x00000000#32 reduces_S1024x1024_S1024 (.inl rfl) rfl :=
  rfl

/-! ## Each piece at an index -/

theorem lhs_0 (j : S1024x1024.Idx) (q : D.contr.Idx) : (D.lhsIdx j q 0).val = (j 0).val := by
  unfold DotDims.lhsIdx
  rw [dif_neg (show ¬(0 : Fin S1024x256.rank) ∈ D.lhsBatch by decide),
    dif_pos (show (0 : Fin S1024x256.rank) ∈ D.lhsNonContracting by decide)]
  rfl
theorem lhs_1 (j : S1024x1024.Idx) (q : D.contr.Idx) : (D.lhsIdx j q 1).val = (q ⟨0, by decide⟩).val :=
  D.lhsIdx_val_of_single rfl j q
theorem rhs_0 (j : S1024x1024.Idx) (q : D.contr.Idx) : (D.rhsIdx j q 0).val = (q ⟨0, by decide⟩).val :=
  D.rhsIdx_val_of_single rfl j q
theorem rhs_1 (j : S1024x1024.Idx) (q : D.contr.Idx) : (D.rhsIdx j q 1).val = (j 1).val := by
  unfold DotDims.rhsIdx
  rw [dif_neg (show ¬(1 : Fin S256x1024.rank) ∈ D.rhsBatch by decide),
    dif_pos (show (1 : Fin S256x1024.rank) ∈ D.rhsNonContracting by decide)]
  rfl

/-- Entry (r, c) of the product is the inner product of row r of the row block and row c of the column block. -/
theorem gram_at (v3 v5 : Vec Ideal S1024x256 .f32) (r c : Fin 1024) :
    gram v3 v5 (ix2 r c) = ∑ k : Fin 256, v3 (ix2 r k) * v5 (ix2 c k) := by
  unfold gram
  rw [shapeCast_self, shapeCast_self]
  refine (Ideal.matmul_constant_zero_apply D none (φ₁ := .f32) (φ₂ := .f32) v3 _ (ix2 r c)).trans ?_
  rw [← Equiv.sum_comp (contrEquiv1 D 256 rfl rfl).symm]
  refine Finset.sum_congr rfl fun k _ => ?_
  have hk := contrEquiv1_symm_val D 256 rfl rfl k
  have el : D.lhsIdx (ix2 r c) ((contrEquiv1 D 256 rfl rfl).symm k) = ix2 r k := funext fun a => Fin.ext (by
    match a with
    | ⟨0, _⟩ => exact lhs_0 _ _
    | ⟨1, _⟩ => exact (lhs_1 _ _).trans hk)
  have er : D.rhsIdx (ix2 r c) ((contrEquiv1 D 256 rfl rfl).symm k) = ix2 k c := funext fun a => Fin.ext (by
    match a with
    | ⟨0, _⟩ => exact (rhs_0 _ _).trans hk
    | ⟨1, _⟩ => exact rhs_1 _ _)
  rw [el, er]
  refine congrArg (v3 (ix2 r k) * ·) ?_
  exact transpose_apply [1, 0] v5 transposes_S1024x256_p1_0_S256x1024 (ix2 k c) (ix2 c k)
    (fun b => match b with | ⟨0, _⟩ => rfl | ⟨1, _⟩ => rfl)

/-- The column of row labels spread over the columns reads row r's label at (r, c). -/
theorem rows_at (v9 : Vec Ideal S1024x1 .i32) (r c : Fin 1024) :
    broadcastTo S1024x1024 v9 broadcasts_S1024x1_S1024x1024 (ix2 r c) = v9 (ix2 r (0 : Fin 1)) :=
  broadcastTo_apply v9 broadcasts_S1024x1_S1024x1024 (ix2 r c) (ix2 r (0 : Fin 1)) (fun a => match a with
    | ⟨0, _⟩ => by show r.val = if (1024 : Nat) = 1 then 0 else r.val; rw [if_neg (by decide)]
    | ⟨1, _⟩ => by show 0 = if (1 : Nat) = 1 then 0 else c.val; rw [if_pos rfl])

/-- The row of column labels spread over the rows reads column c's label at (r, c). -/
theorem cols_at (v11 : Vec Ideal S1x1024 .i32) (r c : Fin 1024) :
    broadcastTo S1024x1024 v11 broadcasts_S1x1024_S1024x1024 (ix2 r c) = v11 (ix2 (0 : Fin 1) c) :=
  broadcastTo_apply v11 broadcasts_S1x1024_S1024x1024 (ix2 r c) (ix2 (0 : Fin 1) c) (fun a => match a with
    | ⟨0, _⟩ => by show 0 = if (1 : Nat) = 1 then 0 else r.val; rw [if_pos rfl]
    | ⟨1, _⟩ => by show c.val = if (1024 : Nat) = 1 then 0 else c.val; rw [if_neg (by decide)])

theorem same_at (v9 : Vec Ideal S1024x1 .i32) (v11 : Vec Ideal S1x1024 .i32) (r c : Fin 1024) :
    same v9 v11 (ix2 r c) = IntOp.cmpi .eq (v9 (ix2 r (0 : Fin 1))) (v11 (ix2 (0 : Fin 1) c)) := by
  unfold same
  rw [shapeCast_self, shapeCast_self]
  show IntOp.cmpi .eq (broadcastTo S1024x1024 v9 broadcasts_S1024x1_S1024x1024 (ix2 r c))
    (broadcastTo S1024x1024 v11 broadcasts_S1x1024_S1024x1024 (ix2 r c)) = _
  rw [rows_at, cols_at]

theorem upper_at (i : grid0.Coords) (r c : Fin 1024) :
    upper i (ix2 r c) = BitVec.ofBool (decide ((i 0).val * 1024 + r.val < (i 1).val * 1024 + c.val)) := by
  unfold upper
  show IntOp.cmpi .slt
      (IntOp.addi (Scalar.muli (BitVec.ofNat 32 (i 0).val) 1024#32) (iota .tc S1024x1024 32 [0] iota_S1024x1024_d0_w32 (ix2 r c)))
      (IntOp.addi (Scalar.muli (BitVec.ofNat 32 (i 1).val) 1024#32) (iota .tc S1024x1024 32 [1] iota_S1024x1024_d1_w32 (ix2 r c))) = _
  rw [iota_single_apply, iota_single_apply]
  exact slt_bit (i 0).val (i 1).val r.val c.val (i 0).isLt (i 1).isLt r.isLt c.isLt

/-- Entry (r, c) of the block's matrix is the contribution of the pair (i0 * 1024 + r, i1 * 1024 + c), over the blocks. -/
theorem entries_at (i : grid0.Coords) (v3 v5 : Vec Ideal S1024x256 .f32) (v9 : Vec Ideal S1024x1 .i32) (v11 : Vec Ideal S1x1024 .i32)
    (r c : Fin 1024) :
    entries i v3 v5 v9 v11 (ix2 r c)
      = if (i 0).val * 1024 + r.val < (i 1).val * 1024 + c.val then
          (if v9 (ix2 r (0 : Fin 1)) = v11 (ix2 (0 : Fin 1) c) then
            Ideal.ofBits .f32 0x3F800000#32 - ∑ k : Fin 256, v3 (ix2 r k) * v5 (ix2 c k)
          else max ((∑ k : Fin 256, v3 (ix2 r k) * v5 (ix2 c k)) - Ideal.ofBits .f32 0x3E99999A#32)
            (Ideal.ofBits .f32 0x00000000#32))
        else Ideal.ofBits .f32 0x00000000#32 := by
  show Scalar.select (upper i (ix2 r c))
    (Scalar.select (same v9 v11 (ix2 r c))
      (Ideal.ofBits .f32 0x3F800000#32 - gram v3 v5 (ix2 r c))
      (max (gram v3 v5 (ix2 r c) - Ideal.ofBits .f32 0x3E99999A#32) (Ideal.ofBits .f32 0x00000000#32)))
    (Ideal.ofBits .f32 0x00000000#32) = _
  rw [upper_at, same_at, gram_at, select_ofBool, select_eq]

/-- The source index over (r) with column c inserted is (r, c). -/
theorem lift_at (r c : Fin 1024) : reduces_S1024x1024_S1024.lift (ix1 r) c = ix2 r c := by
  funext a
  refine Fin.ext ?_
  match a with
  | ⟨0, _⟩ => rfl
  | ⟨1, _⟩ => rfl

/-- The lane-sum payload at row r: 0 plus the sum over the block's columns of the pairs' contributions. -/
theorem pay4_at (i : grid0.Coords) (v3 v5 : Vec Ideal S1024x256 .f32) (v9 : Vec Ideal S1024x1 .i32) (v11 : Vec Ideal S1x1024 .i32)
    (r : Fin 1024) :
    k0_pay4 (F := Ideal) i v3 v5 v9 v11 (ix1 r)
      = Ideal.ofBits .f32 0x00000000#32 + ∑ c : Fin 1024,
          (if (i 0).val * 1024 + r.val < (i 1).val * 1024 + c.val then
            (if v9 (ix2 r (0 : Fin 1)) = v11 (ix2 (0 : Fin 1) c) then
              Ideal.ofBits .f32 0x3F800000#32 - ∑ k : Fin 256, v3 (ix2 r k) * v5 (ix2 c k)
            else max ((∑ k : Fin 256, v3 (ix2 r k) * v5 (ix2 c k)) - Ideal.ofBits .f32 0x3E99999A#32)
              (Ideal.ofBits .f32 0x00000000#32))
          else Ideal.ofBits .f32 0x00000000#32) := by
  have hz : ∀ s : EReal, Ideal.ofBits .f32 0x00000000#32 + s = s := fun s => by rw [Ideal.ofBits_zero_f32, zero_add]
  rw [pay4_eq]
  refine (Ideal.multiReduction_add_single (entries i v3 v5 v9 v11) 0x00000000#32 reduces_S1024x1024_S1024 (.inl rfl) rfl
    (ix1 r)).trans ?_
  refine Eq.trans ?_ (hz _).symm
  show ∑ c : Fin 1024, entries i v3 v5 v9 v11 (reduces_S1024x1024_S1024.lift (ix1 r) c) = _
  refine Finset.sum_congr rfl fun c _ => ?_
  rw [lift_at, entries_at]

/-! ## The lane sum over the blocks of the normalised matrix and the labels -/

/-- When the four loaded blocks are row block i0 and column block i1 of the normalised matrix and of the labels, the
    lane sum of row r is what column block i1 adds to the accumulator of row i0 * 1024 + r. -/
theorem pay4_blockSum (xn : (⟨2, ![8192, 256]⟩ : Shape).Idx → EReal) (lbl : (⟨1, ![8192]⟩ : Shape).Idx → BitVec 32)
    (i : grid0.Coords) (i0 i1 : Fin 8) (h0 : (i 0).val = i0.val) (h1 : (i 1).val = i1.val)
    (v3 v5 : Vec Ideal S1024x256 .f32) (v9 : Vec Ideal S1024x1 .i32) (v11 : Vec Ideal S1x1024 .i32)
    (hq : ∀ (r : Fin 1024) (k : Fin 256), v3 (ix2 r k) = xn (ix2 (col i0 r) k))
    (hk : ∀ (c : Fin 1024) (k : Fin 256), v5 (ix2 c k) = xn (ix2 (col i1 c) k))
    (hlq : ∀ r : Fin 1024, v9 (ix2 r (0 : Fin 1)) = lbl (ix1 (col i0 r)))
    (hlk : ∀ c : Fin 1024, v11 (ix2 (0 : Fin 1) c) = lbl (ix1 (col i1 c)))
    (r : Fin 1024) :
    k0_pay4 (F := Ideal) i v3 v5 v9 v11 (ix1 r) = blockSum (pair xn lbl (col i0 r)) i1 := by
  rw [pay4_at]
  unfold blockSum
  refine congrArg (Ideal.ofBits .f32 0x00000000#32 + ·) (Finset.sum_congr rfl fun c _ => ?_)
  unfold pair sim
  rw [h0, h1, hlq, hlk]
  simp only [hq, hk]
  rfl

end Cert.KernelIdeal.PayValue

end
-- ==== Proof.KValue.lean ====
/-
  The kernel's result column at the ideal instance: row `i` ends holding the row's accumulator after all eight column
  blocks.

  The two label windows read host reshapes of the label vector (a column and a row of the same 8192 labels). At grid
  point t = 8·i0 + i1 the four staged blocks are row block i0 and column block i1 of the normalised matrix and of the
  labels, so the point's lane sums are what column block i1 adds to the accumulators of rows 1024·i0 …; along a grid
  row the output's staging buffer therefore runs through the accumulators' partial sums, and the last point of the
  row writes them back.
-/
import proofs.«140798_j17523466567855_1_alg».proof.Proof.KArr
import proofs.«140798_j17523466567855_1_alg».proof.Proof.Payload
import Idealize.ShloMosaic.Lib.StableHlo.Run
import Idealize.ShloMosaic.Lib.ValueLayout

set_option maxRecDepth 16384

noncomputable section

namespace Cert.KernelIdeal.Hand

open Cert.KernelIdeal Cert.KernelIdeal.Gen Cert.KernelIdeal.PayValue Cert.PairLoss
open Idealize.ShloMosaic Idealize.ShloMosaic.TcCoe Idealize.ShloMosaic.ValueIdx
open Idealize.SL.Sem
open Idealize.ShloMosaic.Pipeline (Dat)

/-! ## The label windows' arrays: the label vector as a column and as a row -/

section Labels

variable {F : FTy → Type} [FloatOps F]
variable (m : (ℓ : Loc nD τ sig) → Buf (Elt F) ℓ)

/-- The label column the region finds is the label vector reshaped to a column. -/
theorem V_v5 (c : Dev nD) : (V m c main_v5 : S8192x1.Idx → Elt F .i32) = shapeCast S8192x1 (m ((c : Thread nD τ).loc main_arg1)) shapeCasts_S8192_S8192x1 := by
  dsimp only [V, V0]
  simp only [hostOps0, hostOps0_1, List.flatten_cons, List.flatten_nil, List.append_nil, List.cons_append, List.nil_append]
  after_results
  rfl

/-- The label row the region finds is the label vector reshaped to a row. -/
theorem V_v6 (c : Dev nD) : (V m c main_v6 : S1x8192.Idx → Elt F .i32) = shapeCast S1x8192 (m ((c : Thread nD τ).loc main_arg1)) shapeCasts_S8192_S1x8192 := by
  dsimp only [V, V0]
  simp only [hostOps0, hostOps0_1, List.flatten_cons, List.flatten_nil, List.append_nil, List.cons_append, List.nil_append]
  after_results
  rfl

/-- Row `i` of the label column is label `i`. -/
theorem lblCol_at (c : Dev nD) (i : Fin 8192) :
    (V m c main_v5 : S8192x1.Idx → Elt F .i32) (ix2 i (0 : Fin 1)) = (m ((c : Thread nD τ).loc main_arg1) : S8192.Idx → Elt F .i32) (ix1 i) := by
  rw [V_v5]
  refine shapeCast_apply _ shapeCasts_S8192_S8192x1 (ix2 i (0 : Fin 1)) (ix1 i) ?_
  rw [Shape.rowMajor_val_one, Shape.rowMajor_val_two]
  show i.val = i.val * 1 + 0
  omega

/-- Column `j` of the label row is label `j`. -/
theorem lblRow_at (c : Dev nD) (j : Fin 8192) :
    (V m c main_v6 : S1x8192.Idx → Elt F .i32) (ix2 (0 : Fin 1) j) = (m ((c : Thread nD τ).loc main_arg1) : S8192.Idx → Elt F .i32) (ix1 j) := by
  rw [V_v6]
  exact shapeCast_a_1a_apply _ shapeCasts_S8192_S1x8192 (0 : Fin 1) j

end Labels

/-! ## At the ideal instance -/

variable (m : (ℓ : Loc nD τ sig) → Buf (Elt Ideal) ℓ)

/-- The normalised matrix as the region finds it. -/
abbrev xnOf (c : Dev nD) : (⟨2, ![8192, 256]⟩ : Shape).Idx → EReal := V m c main_v4
/-- The label vector. -/
abbrev lblOf (c : Dev nD) : (⟨1, ![8192]⟩ : Shape).Idx → BitVec 32 := m ((c : Thread nD τ).loc main_arg1)

/-- At grid point t = 8·i0 + i1 the lane sum of row `r` is what column block i1 adds to the accumulator of row
    1024·i0 + r: the four staged blocks are row block i0 and column block i1 of the matrix and of the labels. -/
theorem pay4_point (c : Dev nD) (t : Fin cfg0.N) (i0 i1 : Fin 8) (ht : t.val = 8 * i0.val + i1.val) (r : Fin 1024) :
    k0_pay4 (F := Ideal) (grid0.coords t) (iblk m c 0 t) (iblk m c 1 t) (iblk m c 2 t) (iblk m c 3 t) (ix1 r)
      = blockSum (pair (xnOf m c) (lblOf m c) (col i0 r)) i1 := by
  obtain ⟨hc0, hc1⟩ := coords_facts t
  have hi0 : i0.val < 8 := i0.isLt
  have hi1 : i1.val < 8 := i1.isLt
  have hd : t.val / 8 = i0.val := by omega
  have hm : t.val % 8 = i1.val := by omega
  refine pay4_blockSum (xnOf m c) (lblOf m c) (grid0.coords t) i0 i1 (hc0.trans hd) (hc1.trans hm)
    (iblk m c 0 t) (iblk m c 1 t) (iblk m c 2 t) (iblk m c 3 t) ?_ ?_ ?_ ?_ r
  · intro q k
    have hq : q.val < 1024 := q.isLt
    have h : t.val / 8 * 1024 + q.val < 8192 := by omega
    have e : (⟨t.val / 8 * 1024 + q.val, h⟩ : Fin 8192) = col i0 q := Fin.ext (by show t.val / 8 * 1024 + q.val = i0.val * 1024 + q.val; rw [hd])
    rw [iblk0_at m c t q k h, e]
  · intro q k
    have hq : q.val < 1024 := q.isLt
    have h : t.val % 8 * 1024 + q.val < 8192 := by omega
    have e : (⟨t.val % 8 * 1024 + q.val, h⟩ : Fin 8192) = col i1 q := Fin.ext (by show t.val % 8 * 1024 + q.val = i1.val * 1024 + q.val; rw [hm])
    rw [iblk1_at m c t q k h, e]
  · intro q
    have hq : q.val < 1024 := q.isLt
    have h : t.val / 8 * 1024 + q.val < 8192 := by omega
    have e : (⟨t.val / 8 * 1024 + q.val, h⟩ : Fin 8192) = col i0 q := Fin.ext (by show t.val / 8 * 1024 + q.val = i0.val * 1024 + q.val; rw [hd])
    rw [iblk2_at m c t q h, e]
    exact lblCol_at m c (col i0 q)
  · intro q
    have hq : q.val < 1024 := q.isLt
    have h : t.val % 8 * 1024 + q.val < 8192 := by omega
    have e : (⟨t.val % 8 * 1024 + q.val, h⟩ : Fin 8192) = col i1 q := Fin.ext (by show t.val % 8 * 1024 + q.val = i1.val * 1024 + q.val; rw [hm])
    rw [iblk3_at m c t q h, e]
    exact lblRow_at m c (col i1 q)

/-- ALONG A GRID ROW the output's staging buffer runs through the accumulators' partial sums: after point 8·i0 + jb
    row `r` holds the accumulator of row 1024·i0 + r after jb + 1 column blocks. By induction on jb. -/
theorem outsAt_rowAcc (c : Dev nD) (i0 : Fin 8) (r : Fin 1024) :
    ∀ (jb : ℕ) (hjb : jb < 8) (h : 8 * i0.val + jb < cfg0.N),
      outsAt m c (8 * i0.val + jb) h (ix2 r (0 : Fin 1)) = rowAcc (xnOf m c) (lblOf m c) (col i0 r) (jb + 1)
  | 0, hjb, h => by
    have h0 : (⟨8 * i0.val + 0, h⟩ : Fin cfg0.N).val % 8 = 0 := by show (8 * i0.val + 0) % 8 = 0; omega
    rw [show outsAt m c (8 * i0.val + 0) h = _ from outsAt_first m c ⟨8 * i0.val + 0, h⟩ h0]
    rw [pay1_at, pay3_eq, pay2_at, pay4_point m c ⟨8 * i0.val + 0, h⟩ i0 ⟨0, hjb⟩ rfl r,
      rowAcc_succ (xnOf m c) (lblOf m c) (col i0 r) 0 hjb, rowAcc_zero]
    rfl
  | jb + 1, hjb, h => by
    have h0 : ¬(⟨8 * i0.val + (jb + 1), h⟩ : Fin cfg0.N).val % 8 = 0 := by show ¬(8 * i0.val + (jb + 1)) % 8 = 0; omega
    have hp : 8 * i0.val + jb < cfg0.N := by omega
    rw [show outsAt m c (8 * i0.val + (jb + 1)) h = _ from outsAt_next m c ⟨8 * i0.val + (jb + 1), h⟩ h0]
    rw [pay1_at, pay3_eq, pay4_point m c ⟨8 * i0.val + (jb + 1), h⟩ i0 ⟨jb + 1, hjb⟩ rfl r,
      rowAcc_succ (xnOf m c) (lblOf m c) (col i0 r) (jb + 1) hjb]
    rw [outsAt_congr m c _ hp (show 8 * i0.val + (jb + 1) - 1 = 8 * i0.val + jb by omega) rfl,
      outsAt_rowAcc c i0 r jb (by omega) hp]
    rfl

/-- THE RESULT COLUMN: row `i` ends holding the row's accumulator after all eight column blocks. -/
theorem arrAt4_rowAcc (c : Dev nD) (i : Fin 8192) :
    (dats m 0 c).arrAt 4 cfg0.N (ix2 i (0 : Fin 1)) = rowAcc (xnOf m c) (lblOf m c) i 8 := by
  obtain ⟨⟨i0, r⟩, rfl⟩ := colEquiv.surjective i
  have hi0 : i0.val < 8 := i0.isLt
  have h' : 8 * i0.val + 7 < cfg0.N := by rw [show cfg0.N = 64 from N_0]; omega
  show (dats m 0 c).arrAt 4 cfg0.N (ix2 (col i0 r) (0 : Fin 1)) = rowAcc (xnOf m c) (lblOf m c) (col i0 r) 8
  exact (arrAt4 m c i0 r (col i0 r).isLt h').trans (outsAt_rowAcc m c i0 r 7 (by omega) h')

end Cert.KernelIdeal.Hand

end
-- ==== Proof.TailValue.lean ====
/-
  The operations after the kernel's region: the sum of the accumulator column over all rows, divided by the number of
  pairs.  If row i's accumulator holds the row's contributions after all 8 column blocks, the result is the loss: the
  sum over both axes of a column of 8192 entries is the sum over the rows, 0 + s = s, the rows' accumulators add up to
  the total, and the quotient is the specification's.
-/
import proofs.«140798_j17523466567855_1_alg».proof.Proof.Gen.KernelIdeal
import proofs.«140798_j17523466567855_1_alg».proof.Proof.Blocked
import Idealize.ShloMosaic.PureOps.Ideal.Laws
import Idealize.ShloMosaic.Lib.ValueIdx

noncomputable section

namespace Cert.KernelIdeal.PayValue

open Cert.KernelIdeal Cert.KernelIdeal.Gen Cert.PairLoss
open Idealize.ShloMosaic Idealize.ShloMosaic.ValueIdx Idealize.SL.Sem

/-- The sum over every index of a column of 8192 entries is the sum over its rows. -/
theorem sum_column (A : S8192x1.Idx → EReal) : ∑ j : S8192x1.Idx, A j = ∑ i : Fin 8192, A (ix2 i (0 : Fin 1)) := by
  rw [sum_idx2]
  refine Finset.sum_congr rfl fun i _ => ?_
  rw [Fin.sum_univ_one]

/-- From the accumulator column to the loss. -/
theorem tail_value (A4 : (⟨S8192x1, .f32⟩ : BufTy).Contents (Elt Ideal))
    (xn : (⟨2, ![8192, 256]⟩ : Shape).Idx → EReal) (lbl : (⟨1, ![8192]⟩ : Shape).Idx → BitVec 32)
    (h : ∀ i : Fin 8192, A4 (ix2 i (0 : Fin 1)) = rowAcc xn lbl i 8) :
    Host.divf (F := Ideal)
        (Host.reduceAdd (F := Ideal) A4 (constant (F := Ideal) S_ .f32 0x00000000#32) reducesTo_S8192x1_S_d0_1 h_S_)
        (constant (F := Ideal) S_ .f32 0x4BFFF800#32)
      = fun _ => loss xn lbl := by
  funext j
  show Ideal.div
      (Host.reduceAdd (F := Ideal) A4 (constant (F := Ideal) S_ .f32 0x00000000#32) reducesTo_S8192x1_S_d0_1 h_S_ j)
      (Ideal.ofBits .f32 0x4BFFF800#32) = _
  unfold loss
  refine congrArg (Ideal.div · _) ?_
  simp only [Host.reduceAdd, Ideal.hostReduceAdd_def]
  rw [Ideal.hostReduceAdd_total reducesTo_S8192x1_S_d0_1 (fun b => b.elim0)]
  show Ideal.ofBits .f32 0x00000000#32 + _ = _
  rw [Ideal.ofBits_zero_f32, zero_add, sum_column, total_eq_blocked]
  exact Finset.sum_congr rfl fun i _ => h i

end Cert.KernelIdeal.PayValue

end
-- ==== Proof.ExitValue.lean ====
/-
  The last buffer after the operations that follow the region, as a function of the region's output column: the sum of
  the column over both axes from the initial value zero, divided by the pair count.
-/
import proofs.«140798_j17523466567855_1_alg».proof.Proof.Exit
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

variable (m : (ℓ : Loc nD τ sig) → Buf (Elt F) ℓ)

/-- The result buffer at the end is the quotient of the column's sum by the pair count. -/
theorem Vt_v9 (c : Dev nD) (A4 : Buf (Elt F) ((c : Thread nD τ).loc main_v7)) :
    (Vt m c A4 main_v9 : S_.Idx → Elt F .f32)
      = Host.divf (Host.reduceAdd (A4 : (⟨S8192x1, .f32⟩ : BufTy).Contents (Elt F)) (constant S_ .f32 0x00000000#32)
          reducesTo_S8192x1_S_d0_1 h_S_) (constant S_ .f32 0x4BFFF800#32) := by
  dsimp only [Vt, Wx]
  show StableHlo.after hostOps1 _ (Proc.devRef .tc main_v9) = _
  after_results
  rw [Function.update_self]

end Cert.KernelIdeal.Hand

end
-- ==== Proof.XnEq.lean ====
/-
  The normalised matrix is the same term in both programs.

  The kernel's program and the reference compute the normalised matrix by the same host operations of the first
  argument, in the same order: the squares, their row sums from zero, the square root, the maximum with the small
  constant, the quotient. So what the kernel's region finds in that array is the reference's term of the argument:
  both sides unfold to the same operations (the side conditions are proofs of the same propositions).
-/
import proofs.«140798_j17523466567855_1_alg».proof.Proof.Entry
import proofs.«140798_j17523466567855_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem

/-- At any float instance: the array the first two windows read, as the region finds it, is the reference's
    normalised matrix of the first argument. -/
theorem xn_eqF {F : FTy → Type} [FloatOps F] (m : (ℓ : Loc nD τ sig) → Buf (Elt F) ℓ) (c : Dev nD) :
    (V m c main_v4 : S8192x256.Idx → Elt F .f32) = Cert.ReferenceIdeal.Read.val_main_v4 (F := F) (m ((c : Thread nD τ).loc main_arg0)) := by
  dsimp only [V, V0]
  simp only [hostOps0, hostOps0_1, List.flatten_cons, List.flatten_nil, List.append_nil, List.cons_append, List.nil_append]
  after_results
  unfold Cert.ReferenceIdeal.Read.val_main_v4 Cert.ReferenceIdeal.Read.val_main_v3 Cert.ReferenceIdeal.Read.val_main_v2 Cert.ReferenceIdeal.Read.val_main_v1 Cert.ReferenceIdeal.Read.val_main_cst Cert.ReferenceIdeal.Read.val_main_v0 Cert.ReferenceIdeal.Read.val_main_call0_v2 Cert.ReferenceIdeal.Read.val_main_call0_v1 Cert.ReferenceIdeal.Read.val_main_call0_cst Cert.ReferenceIdeal.Read.val_main_call0_v0
  rfl

/-- At the ideal instance, over the extended reals. -/
theorem xn_eq (m : (ℓ : Loc nD τ sig) → Buf (Elt Ideal) ℓ) (c : Dev nD) :
    (V m c main_v4 : (⟨2, ![8192, 256]⟩ : Shape).Idx → EReal) = Cert.ReferenceIdeal.Read.val_main_v4 (F := Ideal) (m ((c : Thread nD τ).loc main_arg0)) :=
  xn_eqF (F := Ideal) m c

end Cert.KernelIdeal.Hand

end
-- ==== Proof.lean ====
/-
  The certificate's claim: a Pallas kernel computing a pairwise cosine-similarity contrastive loss block by block
  equals its whole-matrix jnp reference over the extended reals.

  Both programs first normalise the 8192 rows of the input (each row divided by the larger of its Euclidean norm and
  a small constant) by the same host operations. With `sim i j` the inner product of normalised rows `i` and `j`, a pair
  `i < j` contributes `1 - sim i j` when the labels agree and `max (sim i j - 0.3) 0` when they differ; the loss is the
  sum over all pairs divided by the number of pairs. The reference masks the whole 8192 × 8192 matrix and sums it at
  once. The kernel walks an 8 × 8 grid of 1024 × 1024 blocks: at a block it forms the same masked entries from a row
  block and a column block of the normalised matrix, sums each row of the block, and adds that to a column of row
  totals that it clears at the first block of each row of blocks; the host then sums the column. The two results
  differ only in how one finite sum is grouped, and addition of extended reals is commutative and associative with
  `0 + x = x`, so they are equal with no finiteness assumption.

  The frames: the reference is host operations only; the kernel's program (read at words and at extended reals alike)
  is host operations, the grid region, host operations, run as a whole with the region's output column tracked point
  by point. The idealization rewrote nothing, so the kernel's idealized program is its own text read at the extended
  reals.
-/
import proofs.«140798_j17523466567855_1_alg».proof.Defs
import proofs.«140798_j17523466567855_1_alg».proof.Proof.Gen.Kernel
import proofs.«140798_j17523466567855_1_alg».proof.Proof.Gen.Kernel.Skeleton
import proofs.«140798_j17523466567855_1_alg».proof.Proof.Gen.Kernel.Launch
import proofs.«140798_j17523466567855_1_alg».proof.Proof.Gen.Kernel.Points
import proofs.«140798_j17523466567855_1_alg».proof.Proof.Gen.KernelIdeal
import proofs.«140798_j17523466567855_1_alg».proof.Proof.Gen.KernelIdeal.Skeleton
import proofs.«140798_j17523466567855_1_alg».proof.Proof.Gen.KernelIdeal.Launch
import proofs.«140798_j17523466567855_1_alg».proof.Proof.Gen.KernelIdeal.Points
import proofs.«140798_j17523466567855_1_alg».proof.Proof.Gen.ReferenceIdeal
import proofs.«140798_j17523466567855_1_alg».proof.Proof.Gen.Pre_finite_inputs
import proofs.«140798_j17523466567855_1_alg».proof.Proof.KRun
import proofs.«140798_j17523466567855_1_alg».proof.Proof.KRunK
import proofs.«140798_j17523466567855_1_alg».proof.Proof.RefValue
import proofs.«140798_j17523466567855_1_alg».proof.Proof.KValue
import proofs.«140798_j17523466567855_1_alg».proof.Proof.TailValue
import proofs.«140798_j17523466567855_1_alg».proof.Proof.ExitValue
import proofs.«140798_j17523466567855_1_alg».proof.Proof.XnEq
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Hand.frame m ρ

/-- So does its reading at the extended reals. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the loss of the normalised rows and the labels: the kernel's output column holds, row by
    row, the row's contributions accumulated over the eight column blocks, and the host's sum of the column is the
    sum over all pairs; the reference's masked matrix summed at once is the same sum. -/
theorem algebraic : Cert.algebraic_KernelIdeal_ReferenceIdeal := by
  intro m ρ m' ρ' _ hagree
  refine ⟨fun c => fun _ => Cert.PairLoss.loss (Cert.KernelIdeal.Hand.V m c Cert.KernelIdeal.main_v4)
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Hand.run_main (F := Ideal) m ρ)
    exact (Cert.KernelIdeal.Hand.Vt_v9 m c _).trans
      (Cert.KernelIdeal.PayValue.tail_value _ _ _ (Cert.KernelIdeal.Hand.arrAt4_rowAcc m c))
  · refine (θ_run Cert.ReferenceIdeal.defs _ _).mono (fun _ h c => ⟨(h c).1.trans ?_, (h c).2⟩)
      (Cert.ReferenceIdeal.RefValue.ref_run m' ρ')
    rw [(hagree c).1, (hagree c).2]
    dsimp only
    rw [Cert.KernelIdeal.Hand.xn_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
